-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S1024x3072 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S1024x3072 : Shape := ⟨2, ![1024, 3072]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S1024x512 : Shape := ⟨2, ![1024, 512]⟩
abbrev S512x512 : Shape := ⟨2, ![512, 512]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 10
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x3072, .bf16⟩
  | .hbm, ⟨6, _⟩ => ⟨S8192x1024, .bf16⟩
  | .hbm, ⟨7, _⟩ => ⟨S1x1024, .f32⟩
  | .hbm, ⟨8, _⟩ => ⟨S8192x1024, .f32⟩
  | .hbm, ⟨9, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S512x128_S512x64_0_0 : ∀ a, (![0, 0] : Fin 2 → Nat) a + S512x64.size a ≤ S512x128.size a
  h_S512x64 : 0 < S512x64.numel
  packedbf16_S512x128_S512x64_0_0 : (Rect.unit (s := S512x128) ![0, 0] S512x64.size inb_S512x128_S512x64_0_0).PackedRows (EltTy.packing .bf16)
  slices_S512x128_o0_64_S512x64 : S512x128.Slices ![0, 64] S512x64
  slices_S2048x128_o0_64_S2048x64 : S2048x128.Slices ![0, 64] S2048x64
  inb_S512x128_S512x64_0_64 : ∀ a, (![0, 64] : Fin 2 → Nat) a + S512x64.size a ≤ S512x128.size a
  packedbf16_S512x128_S512x64_0_64 : (Rect.unit (s := S512x128) ![0, 64] S512x64.size inb_S512x128_S512x64_0_64).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x512_S512x512_1_0_0_1_n_n_wf : DotDims.WF S512x1024 S1024x512 S512x512 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x3072.size a
  hwx0_1 : ∀ i : grid0.Coords, EltTy.bits .f32 = 32 ∨ (Rect.block (s := S1024x3072) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x3072.size a
  hwx0_2 : ∀ i : grid0.Coords, EltTy.bits .bf16 = 32 ∨ (Rect.block (s := S8192x3072) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x3072.size a
  hwx1_0 : ∀ i : grid1.Coords, EltTy.bits .bf16 = 32 ∨ (Rect.block (s := S8192x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x1024.size a
  hwx1_3 : ∀ i : grid1.Coords, EltTy.bits .bf16 = 32 ∨ (Rect.block (s := S8192x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S1x4x16x2048x64, .f32⟩
  | .hbm, ⟨10, _⟩ => ⟨S4x16x2048x64, .f32⟩
  | .hbm, ⟨11, _⟩ => ⟨S1x4x16x2048x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.RunDefsBits.lean ====
/-
  What each of the three kernels leaves behind, as definitions: for every kernel, a window's block at a grid point read
  off the array the kernel finds, the output block the body stores there as a function of the input blocks, and the
  record of these per grid point; then the contents of every buffer at each boundary between the host operations and
  the kernels, from the launch memory to the return.

  Kernel 0 (grid 16 × 6) multiplies a 512 × 1024 block of token rows by a 1024 × 512 block of weight columns into
  a 512 × 512 block. Kernel 1 (grid 4 × 8 × 4: batch, head pair, query tile) reads a 512 × 128 query block and the
  2048 × 128 key and value blocks of the same head pair out of ONE array — the first kernel's result — and stores
  the two heads' 512 × 64 outputs side by side. Kernel 2 (grid 16) multiplies a 512 × 1024 block by the whole
  1024 × 1024 weight and adds the bias row.
-/
import proofs.«162601_j52441550684580_2_alg».proof.Proof.Gen.Kernel.Launch
import proofs.«162601_j52441550684580_2_alg».proof.Proof.Gen.Kernel.Skeleton
import proofs.«162601_j52441550684580_2_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

section Regions
-- the buffer contents a kernel finds when it is entered
variable (V : (c : Dev nD) → (b : Ref sig .tc) → Buf (Elt F) ((c : Thread nD τ).loc b))

/-! ## Kernel 0: the QKV projection -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S512x1024 := Rect.unit (s := S512x1024) ![0, 0] S512x1024.size inb_S512x1024_S512x1024_0_0
abbrev r0_b : Rect S1024x512 := Rect.unit (s := S1024x512) ![0, 0] S1024x512.size inb_S1024x512_S1024x512_0_0
abbrev r0_o : Rect S512x512 := Rect.unit (s := S512x512) ![0, 0] S512x512.size inb_S512x512_S512x512_0_0

/-- The output block after the body: its one store, of the product of the two input blocks. -/
def out0_2 (x0 : Vec F S512x1024 .f32) (x1 : Vec F S1024x512 .f32) : Vec F S512x512 .bf16 :=
  View.canon [⟨r0_o, k0_pay1 (View.ld x0 r0_a) (View.ld x1 r0_b)⟩]

/-- Per grid point: the inputs' buffers keep their blocks, the output's holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Kernel 1: attention over one batch, one pair of heads and one tile of 512 queries -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q : Rect S512x128 := Rect.unit (s := S512x128) ![0, 0] S512x128.size inb_S512x128_S512x128_0_0
abbrev r1_kv : Rect S2048x128 := Rect.unit (s := S2048x128) ![0, 0] S2048x128.size inb_S2048x128_S2048x128_0_0
abbrev r1_lo : Rect S512x128 := Rect.unit (s := S512x128) ![0, 0] S512x64.size inb_S512x128_S512x64_0_0
abbrev r1_hi : Rect S512x128 := Rect.unit (s := S512x128) ![0, 64] S512x64.size inb_S512x128_S512x64_0_64

/-- The output block after the body: the second head's 512 × 64 result stored in columns 64–127 (the later store,
    listed first), the first head's in columns 0–63. -/
def out1_3 (x0 : Vec F S512x128 .bf16) (x1 : Vec F S2048x128 .bf16) (x2 : Vec F S2048x128 .bf16) : Vec F S512x128 .bf16 :=
  View.canon [⟨r1_hi, k1_pay1 (k1_pay6 (View.ld x2 r1_kv)) (k1_pay7 (View.ld x0 r1_q) (View.ld x1 r1_kv)) (k1_pay8 (View.ld x0 r1_q) (View.ld x1 r1_kv))⟩,
    ⟨r1_lo, k1_pay5 (View.ld x0 r1_q) (View.ld x1 r1_kv) (View.ld x2 r1_kv)⟩]

/-- The three positive shares the one array behind the query, key and value windows is held at: a left half, and the
    two halves of the right half. -/
def qshare : Fin 4 → PosShare TreeShare
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := qshare w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Kernel 2: the output projection and its bias -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store, the product plus the bias row. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_w) (View.ld x2 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Regions

/-! ## The buffer contents at each boundary, from the launch memory to the return -/

variable (m : (ℓ : Loc nD τ sig) → Buf (Elt F) ℓ)

/-- Core `c`'s buffers at launch. -/
abbrev W0 : Dev nD → Valuation τ sig (Elt F) := fun c b => m (c, b)
/-- After the reshape of the tokens to 8192 rows (kernel 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel 0: its result array holds the blocks it wrote back, every other buffer is as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After kernel 1: only its result array changes (its three input windows read one array, which it leaves alone). -/
def W3 (c : Dev nD) : Valuation τ sig (Elt F) :=
  Function.update (W2 m c) (Proc.devRef .tc main_v2) ((dat1 (V2 m) c).arrAt 3 cfg1.N)
abbrev V3 : (c : Dev nD) → (b : Ref sig .tc) → Buf (Elt F) ((c : Thread nD τ).loc b) := fun c b => W3 m c b
/-- After the reshape of the bias to one row (kernel 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After kernel 2. -/
def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b
/-- After the reshape of the result back to batches: what the program returns. -/
abbrev W6 : Dev nD → Valuation τ sig (Elt F) := fun c => StableHlo.after hostOps3 (W5 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_out (c : Dev nD) : W3 m c (Proc.devRef .tc main_v2) = (dat1 (V2 m) c).arrAt 3 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

end Cert.Kernel.Run

end
-- ==== Proof.Body0Bits.lean ====
/-
  Kernel 0's body, called at any grid point on buffers holding the two input blocks, ends with the output buffer holding
  their product's block; the inputs' buffers are unchanged.
-/
import proofs.«162601_j52441550684580_2_alg».proof.Proof.RunDefsBits
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Kernel 0 -/

/-- An input window's buffer holds its block at every point, whether the point fetches it or not: a point that does
    not fetch finds the block of the last fetch, whose index is the same. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The one store covers the output block. -/
theorem cover0_2 (p0 : Vec F S512x512 .bf16) (y : S512x512.Idx) :
    ∃ pc ∈ ([⟨r0_o, p0⟩] : List (View.Piece (Elt F) S512x512 .bf16)), y ∈ pc.1.set :=
  View.cover_of_tiled [⟨r0_o, p0⟩] S512x512.size (by rfl) y

set_option maxHeartbeats 1000000 in
/-- The body on whole buffers, the inputs' at contents `x0`, `x1` and the output's at anything, ends with the inputs'
    unchanged and the output's at `out0_2 x0 x1`. -/
theorem sound_kernel0 (c : Dev nD) (E : Set ℕ) (i : grid0.Coords)
    (arg2 : Memref sig .tc .vmem S512x1024 .f32) (harg2 : arg2.IsWhole) (arg3 : Memref sig .tc .vmem S1024x512 .f32) (harg3 : arg3.IsWhole)
    (arg4 : Memref sig .tc .vmem S512x512 .bf16) (harg4 : arg4.IsWhole)
    (x0 : Vec F S512x1024 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Regions

end Cert.Kernel.Run

end
-- ==== Proof.Body1Bits.lean ====
/-
  The attention kernel's body, called at any grid point on buffers holding the query, key and value blocks, ends with the
  output buffer holding the two heads' results side by side; the inputs' buffers are unchanged.
-/
import proofs.«162601_j52441550684580_2_alg».proof.Proof.RunDefsBits
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Kernel 1 -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The two stores, of columns 64–127 and of columns 0–63, cover the output block. -/
theorem cover1_3 (p0 : Vec F S512x64 .bf16) (p1 : Vec F S512x64 .bf16) (y : S512x128.Idx) :
    ∃ pc ∈ ([⟨r1_hi, p0⟩, ⟨r1_lo, p1⟩] : List (View.Piece (Elt F) S512x128 .bf16)), y ∈ pc.1.set :=
  View.cover_of_tiled [⟨r1_hi, p0⟩, ⟨r1_lo, p1⟩] S512x64.size (by rfl) y

set_option maxHeartbeats 2000000 in
/-- The body on whole buffers, the query, key and value buffers at contents `x0`, `x1`, `x2` and the output's at
    anything, ends with the inputs' unchanged and the output's at `out1_3 x0 x1 x2`. -/
theorem sound_kernel1 (c : Dev nD) (E : Set ℕ) (i : grid1.Coords)
    (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (x0 : Vec F S512x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Run

end
-- ==== Proof.Body2Bits.lean ====
/-
  Kernel 2's body, called at any grid point on buffers holding the attention block, the weight and the bias row, ends with
  the output buffer holding the product plus the bias; the inputs' buffers are unchanged.
-/
import proofs.«162601_j52441550684580_2_alg».proof.Proof.RunDefsBits
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Kernel 2 -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole buffers, the inputs' at contents `x0`, `x1`, `x2` and the output's at anything, ends with the
    inputs' unchanged and the output's at `out2_3 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_resident_kernel i arg1 harg1 arg2 harg2 arg3 harg3 arg4 harg4) K := by
  simp only [cc2__matmul_bias_resident_kernel_eq_skeleton]; unfold cc2__matmul_bias_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Regions

end Cert.Kernel.Run

end
-- ==== Proof.RunAllBits.lean ====
/-
  The three kernels run: each kernel's body, called at any grid point on buffers holding the input blocks, ends with
  the output buffer holding the block the definitions name; hence, kernel by kernel and host operation by host
  operation, every weakly fair execution of the whole program terminates without a fault in a memory whose every
  buffer holds the contents the definitions give for the return. The three windows of the attention kernel that read
  one array hold it at three shares of the whole, split at the kernel's entry and joined again at its exit.
-/
import proofs.«162601_j52441550684580_2_alg».proof.Proof.Body0Bits
import proofs.«162601_j52441550684580_2_alg».proof.Proof.Body1Bits
import proofs.«162601_j52441550684580_2_alg».proof.Proof.Body2Bits
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each boundary keeps of the one before it -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- A reshape writes its result only. -/
theorem after0_of_ne (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem after2_of_ne (W : Valuation τ sig (Elt F)) (b : Ref sig .tc) (hb : b ≠ main_v3) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))
theorem after3_of_ne (W : Valuation τ sig (Elt F)) (b : Ref sig .tc) (hb : b ≠ main_v5) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ### The argument arrays end as launched: no reshape writes one, and a kernel only reads them -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := after3_of_ne _ _ (by decide)
    _ = W4 m c (Proc.devRef .tc main_arg0) := W5_of_ne m c main_arg0 (by decide)
    _ = W3 m c (Proc.devRef .tc main_arg0) := after2_of_ne _ _ (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := after0_of_ne _ _ (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := after3_of_ne _ _ (by decide)
    _ = W4 m c (Proc.devRef .tc main_arg1) := W5_of_ne m c main_arg1 (by decide)
    _ = W3 m c (Proc.devRef .tc main_arg1) := after2_of_ne _ _ (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := after0_of_ne _ _ (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := after3_of_ne _ _ (by decide)
    _ = W4 m c (Proc.devRef .tc main_arg2) := (W5_arr m c 1).trans (((dat2 (V4 m) c).arrAt_in 1 rfl _).trans (A_eq2 (V4 m) c 1))
    _ = W3 m c (Proc.devRef .tc main_arg2) := after2_of_ne _ _ (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := after0_of_ne _ _ (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := after3_of_ne _ _ (by decide)
    _ = W4 m c (Proc.devRef .tc main_arg3) := W5_of_ne m c main_arg3 (by decide)
    _ = W3 m c (Proc.devRef .tc main_arg3) := after2_of_ne _ _ (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := after0_of_ne _ _ (by decide)
    _ = m ((c : Thread nD τ).loc main_arg3) := rfl

/-! ## The attention kernel's arrays: one array behind three windows -/

/-- The kernel's arrays, window by window: the array its query, key and value windows read at the three shares, the
    output array whole. -/
theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1]
  rw [(arr_whole1 0).set_eq_univ, (arr_whole1 3).set_eq_univ]
  rfl

/-- Entering the attention kernel: the array its three input windows read is held whole; it is split into the three
    shares the windows hold it at, the output array is taken whole, and every other buffer passes by. -/
theorem entry1 (c : Dev nD) :
    (StableHlo.held (c : Thread nD τ) (Pipeline.ucRefs τ sig) (W2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  rw [← Pipeline.unscopedBufs_held c (W2 m c)]
  rw [Pipeline.unscopedBufs_split₀ cfgs 1 (by decide) c (V2 m c)]
  refine sep_mono ?_ .rfl
  unfold Pipeline.arrBufs
  rw [bigSep_eq_bigSepL_of_eq [main_v1, main_v2] (by decide) (by decide), arrays1_eq]
  show (iprop((((c : Thread nD τ).loc main_v1) ↦{fullShare} V2 m c main_v1) ∗ (((c : Thread nD τ).loc main_v2) ↦{fullShare} V2 m c main_v2)) : sProp 𝕄)
    ⊢ iprop((((c : Thread nD τ).loc main_v1) ↦{fullShare.left} V2 m c main_v1) ∗ (((c : Thread nD τ).loc main_v1) ↦{fullShare.right.left} V2 m c main_v1)
          ∗ (((c : Thread nD τ).loc main_v1) ↦{fullShare.right.right} V2 m c main_v1) ∗ (((c : Thread nD τ).loc main_v2) ↦{fullShare} V2 m c main_v2))
  iintro ⟨H1, H2⟩
  ihave H1' := (pointsTo_share (PosShare.mem_left_op_right fullShare)).1 $$ H1
  icases H1' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H2

/-- The attention kernel never writes the array its inputs read: after every point it is as found. -/
theorem arrAt1_in (c : Dev nD) (w : Fin cfg1.W) (hw : w ≠ 3) (n : Nat) : (dat1 (V2 m) c).arrAt w n = V2 m c (Pipeline.arrRef spec1 w) := by
  match w, hw with
  | ⟨0, _⟩, _ => exact ((dat1 (V2 m) c).arrAt_in 0 rfl _).trans (A_eq1 (V2 m) c 0)
  | ⟨1, _⟩, _ => exact ((dat1 (V2 m) c).arrAt_in 1 rfl _).trans (A_eq1 (V2 m) c 1)
  | ⟨2, _⟩, _ => exact ((dat1 (V2 m) c).arrAt_in 2 rfl _).trans (A_eq1 (V2 m) c 2)
  | ⟨3, _⟩, h => exact absurd rfl h

/-- Leaving it: the three shares of the input array, still at the contents found, join to the whole; the output array
    comes back at what the write-backs left; no other buffer has changed. -/
theorem exit1 (c : Dev nD) :
    iprop((dat1 (V2 m) c).arrays ((dat1 (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held c (W3 m c)]
  rw [Pipeline.unscopedBufs_split₀ cfgs 1 (by decide) c (V3 m c)]
  show _ ⊢ (iprop(Pipeline.arrBufs spec1 c (V3 m c) ∗ Pipeline.unscopedRest spec1 c (V3 m c)) : sProp 𝕄)
  have hrest : (Pipeline.unscopedRest (Ix := Unit) (Name := ℕ) (U := UR sig nD τ) (Lvl := ℕ) spec1 c (V3 m c) : sProp 𝕄)
      = Pipeline.unscopedRest spec1 c (V2 m c) := by
    unfold Pipeline.unscopedRest
    refine bigSep_congr fun b hb => ?_
    have hb' : b ≠ main_v2 := fun e => (Finset.mem_sdiff.mp hb).2 (e ▸ Finset.mem_image.mpr ⟨3, Finset.mem_univ _, rfl⟩)
    rw [show V3 m c b = V2 m c b from W3_of_ne m c b hb']
  rw [hrest]
  refine sep_mono ?_ .rfl
  unfold Pipeline.arrBufs
  rw [bigSep_eq_bigSepL_of_eq [main_v1, main_v2] (by decide) (by decide), arrays1_eq,
    arrAt1_in m c 0 (by decide), arrAt1_in m c 1 (by decide), arrAt1_in m c 2 (by decide)]
  show (iprop((((c : Thread nD τ).loc main_v1) ↦{fullShare.left} V2 m c main_v1) ∗ (((c : Thread nD τ).loc main_v1) ↦{fullShare.right.left} V2 m c main_v1)
          ∗ (((c : Thread nD τ).loc main_v1) ↦{fullShare.right.right} V2 m c main_v1) ∗ (((c : Thread nD τ).loc main_v2) ↦{fullShare} (dat1 (V2 m) c).arrAt 3 cfg1.N)) : sProp 𝕄)
    ⊢ iprop((((c : Thread nD τ).loc main_v1) ↦{fullShare} V3 m c main_v1) ∗ (((c : Thread nD τ).loc main_v2) ↦{fullShare} V3 m c main_v2))
  rw [show V3 m c main_v1 = V2 m c main_v1 from W3_of_ne m c main_v1 (by decide), show V3 m c main_v2 = (dat1 (V2 m) c).arrAt 3 cfg1.N from W3_out m c]
  iintro ⟨Hl, Hrl, Hrr, H2⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H2

/-! ## The kernels' records, each entered with the contents of the boundary before it -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers: the core's generator register at some state, and nothing owed to another core. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without what is owed: every buffer at the return contents, the generator register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Kernel 0 between the boundary before it and the one after it: its arrays are taken out of the core's buffers at the
    contents it finds and put back at what its write-backs leave; everything else passes by. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel between its two boundaries. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Kernel 2 between the boundary before it and the one after it: its arrays are taken out of the core's buffers at the
    contents it finds and put back at what its write-backs leave; everything else passes by. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its six segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- Every weakly fair execution of the program from memory `m` with zero counters terminates, nothing faulting, in a
    memory whose every unscoped buffer holds the return contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Run

end
-- ==== Proof.RunDefsIdeal.lean ====
/-
  What each of the three kernels leaves behind, as definitions: for every kernel, a window's block at a grid point read
  off the array the kernel finds, the output block the body stores there as a function of the input blocks, and the
  record of these per grid point; then the contents of every buffer at each boundary between the host operations and
  the kernels, from the launch memory to the return.

  Kernel 0 (grid 16 × 6) multiplies a 512 × 1024 block of token rows by a 1024 × 512 block of weight columns into
  a 512 × 512 block. Kernel 1 (grid 4 × 8 × 4: batch, head pair, query tile) reads a 512 × 128 query block and the
  2048 × 128 key and value blocks of the same head pair out of ONE array — the first kernel's result — and stores
  the two heads' 512 × 64 outputs side by side. Kernel 2 (grid 16) multiplies a 512 × 1024 block by the whole
  1024 × 1024 weight and adds the bias row.
-/
import proofs.«162601_j52441550684580_2_alg».proof.Proof.Gen.KernelIdeal.Launch
import proofs.«162601_j52441550684580_2_alg».proof.Proof.Gen.KernelIdeal.Skeleton
import proofs.«162601_j52441550684580_2_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

section Regions
-- the buffer contents a kernel finds when it is entered
variable (V : (c : Dev nD) → (b : Ref sig .tc) → Buf (Elt F) ((c : Thread nD τ).loc b))

/-! ## Kernel 0: the QKV projection -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S512x1024 := Rect.unit (s := S512x1024) ![0, 0] S512x1024.size inb_S512x1024_S512x1024_0_0
abbrev r0_b : Rect S1024x512 := Rect.unit (s := S1024x512) ![0, 0] S1024x512.size inb_S1024x512_S1024x512_0_0
abbrev r0_o : Rect S512x512 := Rect.unit (s := S512x512) ![0, 0] S512x512.size inb_S512x512_S512x512_0_0

/-- The output block after the body: its one store, of the product of the two input blocks. -/
def out0_2 (x0 : Vec F S512x1024 .f32) (x1 : Vec F S1024x512 .f32) : Vec F S512x512 .bf16 :=
  View.canon [⟨r0_o, k0_pay1 (View.ld x0 r0_a) (View.ld x1 r0_b)⟩]

/-- Per grid point: the inputs' buffers keep their blocks, the output's holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Kernel 1: attention over one batch, one pair of heads and one tile of 512 queries -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q : Rect S512x128 := Rect.unit (s := S512x128) ![0, 0] S512x128.size inb_S512x128_S512x128_0_0
abbrev r1_kv : Rect S2048x128 := Rect.unit (s := S2048x128) ![0, 0] S2048x128.size inb_S2048x128_S2048x128_0_0
abbrev r1_lo : Rect S512x128 := Rect.unit (s := S512x128) ![0, 0] S512x64.size inb_S512x128_S512x64_0_0
abbrev r1_hi : Rect S512x128 := Rect.unit (s := S512x128) ![0, 64] S512x64.size inb_S512x128_S512x64_0_64

/-- The output block after the body: the second head's 512 × 64 result stored in columns 64–127 (the later store,
    listed first), the first head's in columns 0–63. -/
def out1_3 (x0 : Vec F S512x128 .bf16) (x1 : Vec F S2048x128 .bf16) (x2 : Vec F S2048x128 .bf16) : Vec F S512x128 .bf16 :=
  View.canon [⟨r1_hi, k1_pay1 (k1_pay6 (View.ld x2 r1_kv)) (k1_pay7 (View.ld x0 r1_q) (View.ld x1 r1_kv)) (k1_pay8 (View.ld x0 r1_q) (View.ld x1 r1_kv))⟩,
    ⟨r1_lo, k1_pay5 (View.ld x0 r1_q) (View.ld x1 r1_kv) (View.ld x2 r1_kv)⟩]

/-- The three positive shares the one array behind the query, key and value windows is held at: a left half, and the
    two halves of the right half. -/
def qshare : Fin 4 → PosShare TreeShare
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := qshare w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Kernel 2: the output projection and its bias -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store, the product plus the bias row. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_w) (View.ld x2 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Regions

/-! ## The buffer contents at each boundary, from the launch memory to the return -/

variable (m : (ℓ : Loc nD τ sig) → Buf (Elt F) ℓ)

/-- Core `c`'s buffers at launch. -/
abbrev W0 : Dev nD → Valuation τ sig (Elt F) := fun c b => m (c, b)
/-- After the reshape of the tokens to 8192 rows (kernel 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel 0: its result array holds the blocks it wrote back, every other buffer is as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After kernel 1: only its result array changes (its three input windows read one array, which it leaves alone). -/
def W3 (c : Dev nD) : Valuation τ sig (Elt F) :=
  Function.update (W2 m c) (Proc.devRef .tc main_v2) ((dat1 (V2 m) c).arrAt 3 cfg1.N)
abbrev V3 : (c : Dev nD) → (b : Ref sig .tc) → Buf (Elt F) ((c : Thread nD τ).loc b) := fun c b => W3 m c b
/-- After the reshape of the bias to one row (kernel 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After kernel 2. -/
def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b
/-- After the reshape of the result back to batches: what the program returns. -/
abbrev W6 : Dev nD → Valuation τ sig (Elt F) := fun c => StableHlo.after hostOps3 (W5 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_out (c : Dev nD) : W3 m c (Proc.devRef .tc main_v2) = (dat1 (V2 m) c).arrAt 3 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

end Cert.KernelIdeal.Run

end
-- ==== Proof.Body0Ideal.lean ====
/-
  Kernel 0's body, called at any grid point on buffers holding the two input blocks, ends with the output buffer holding
  their product's block; the inputs' buffers are unchanged.
-/
import proofs.«162601_j52441550684580_2_alg».proof.Proof.RunDefsIdeal
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Kernel 0 -/

/-- An input window's buffer holds its block at every point, whether the point fetches it or not: a point that does
    not fetch finds the block of the last fetch, whose index is the same. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The one store covers the output block. -/
theorem cover0_2 (p0 : Vec F S512x512 .bf16) (y : S512x512.Idx) :
    ∃ pc ∈ ([⟨r0_o, p0⟩] : List (View.Piece (Elt F) S512x512 .bf16)), y ∈ pc.1.set :=
  View.cover_of_tiled [⟨r0_o, p0⟩] S512x512.size (by rfl) y

set_option maxHeartbeats 1000000 in
/-- The body on whole buffers, the inputs' at contents `x0`, `x1` and the output's at anything, ends with the inputs'
    unchanged and the output's at `out0_2 x0 x1`. -/
theorem sound_kernel0 (c : Dev nD) (E : Set ℕ) (i : grid0.Coords)
    (arg2 : Memref sig .tc .vmem S512x1024 .f32) (harg2 : arg2.IsWhole) (arg3 : Memref sig .tc .vmem S1024x512 .f32) (harg3 : arg3.IsWhole)
    (arg4 : Memref sig .tc .vmem S512x512 .bf16) (harg4 : arg4.IsWhole)
    (x0 : Vec F S512x1024 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Regions

end Cert.KernelIdeal.Run

end
-- ==== Proof.Body1Ideal.lean ====
/-
  The attention kernel's body, called at any grid point on buffers holding the query, key and value blocks, ends with the
  output buffer holding the two heads' results side by side; the inputs' buffers are unchanged.
-/
import proofs.«162601_j52441550684580_2_alg».proof.Proof.RunDefsIdeal
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Kernel 1 -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The two stores, of columns 64–127 and of columns 0–63, cover the output block. -/
theorem cover1_3 (p0 : Vec F S512x64 .bf16) (p1 : Vec F S512x64 .bf16) (y : S512x128.Idx) :
    ∃ pc ∈ ([⟨r1_hi, p0⟩, ⟨r1_lo, p1⟩] : List (View.Piece (Elt F) S512x128 .bf16)), y ∈ pc.1.set :=
  View.cover_of_tiled [⟨r1_hi, p0⟩, ⟨r1_lo, p1⟩] S512x64.size (by rfl) y

set_option maxHeartbeats 2000000 in
/-- The body on whole buffers, the query, key and value buffers at contents `x0`, `x1`, `x2` and the output's at
    anything, ends with the inputs' unchanged and the output's at `out1_3 x0 x1 x2`. -/
theorem sound_kernel1 (c : Dev nD) (E : Set ℕ) (i : grid1.Coords)
    (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (x0 : Vec F S512x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Run

end
-- ==== Proof.Body2Ideal.lean ====
/-
  Kernel 2's body, called at any grid point on buffers holding the attention block, the weight and the bias row, ends with
  the output buffer holding the product plus the bias; the inputs' buffers are unchanged.
-/
import proofs.«162601_j52441550684580_2_alg».proof.Proof.RunDefsIdeal
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Kernel 2 -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole buffers, the inputs' at contents `x0`, `x1`, `x2` and the output's at anything, ends with the
    inputs' unchanged and the output's at `out2_3 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_resident_kernel i arg1 harg1 arg2 harg2 arg3 harg3 arg4 harg4) K := by
  simp only [cc2__matmul_bias_resident_kernel_eq_skeleton]; unfold cc2__matmul_bias_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Regions

end Cert.KernelIdeal.Run

end
-- ==== Proof.RunAllIdeal.lean ====
/-
  The three kernels run: each kernel's body, called at any grid point on buffers holding the input blocks, ends with
  the output buffer holding the block the definitions name; hence, kernel by kernel and host operation by host
  operation, every weakly fair execution of the whole program terminates without a fault in a memory whose every
  buffer holds the contents the definitions give for the return. The three windows of the attention kernel that read
  one array hold it at three shares of the whole, split at the kernel's entry and joined again at its exit.
-/
import proofs.«162601_j52441550684580_2_alg».proof.Proof.Body0Ideal
import proofs.«162601_j52441550684580_2_alg».proof.Proof.Body1Ideal
import proofs.«162601_j52441550684580_2_alg».proof.Proof.Body2Ideal
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each boundary keeps of the one before it -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- A reshape writes its result only. -/
theorem after0_of_ne (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem after2_of_ne (W : Valuation τ sig (Elt F)) (b : Ref sig .tc) (hb : b ≠ main_v3) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))
theorem after3_of_ne (W : Valuation τ sig (Elt F)) (b : Ref sig .tc) (hb : b ≠ main_v5) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ### The argument arrays end as launched: no reshape writes one, and a kernel only reads them -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := after3_of_ne _ _ (by decide)
    _ = W4 m c (Proc.devRef .tc main_arg0) := W5_of_ne m c main_arg0 (by decide)
    _ = W3 m c (Proc.devRef .tc main_arg0) := after2_of_ne _ _ (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := after0_of_ne _ _ (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := after3_of_ne _ _ (by decide)
    _ = W4 m c (Proc.devRef .tc main_arg1) := W5_of_ne m c main_arg1 (by decide)
    _ = W3 m c (Proc.devRef .tc main_arg1) := after2_of_ne _ _ (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := after0_of_ne _ _ (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := after3_of_ne _ _ (by decide)
    _ = W4 m c (Proc.devRef .tc main_arg2) := (W5_arr m c 1).trans (((dat2 (V4 m) c).arrAt_in 1 rfl _).trans (A_eq2 (V4 m) c 1))
    _ = W3 m c (Proc.devRef .tc main_arg2) := after2_of_ne _ _ (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := after0_of_ne _ _ (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := after3_of_ne _ _ (by decide)
    _ = W4 m c (Proc.devRef .tc main_arg3) := W5_of_ne m c main_arg3 (by decide)
    _ = W3 m c (Proc.devRef .tc main_arg3) := after2_of_ne _ _ (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := after0_of_ne _ _ (by decide)
    _ = m ((c : Thread nD τ).loc main_arg3) := rfl

/-! ## The attention kernel's arrays: one array behind three windows -/

/-- The kernel's arrays, window by window: the array its query, key and value windows read at the three shares, the
    output array whole. -/
theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1]
  rw [(arr_whole1 0).set_eq_univ, (arr_whole1 3).set_eq_univ]
  rfl

/-- Entering the attention kernel: the array its three input windows read is held whole; it is split into the three
    shares the windows hold it at, the output array is taken whole, and every other buffer passes by. -/
theorem entry1 (c : Dev nD) :
    (StableHlo.held (c : Thread nD τ) (Pipeline.ucRefs τ sig) (W2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  rw [← Pipeline.unscopedBufs_held c (W2 m c)]
  rw [Pipeline.unscopedBufs_split₀ cfgs 1 (by decide) c (V2 m c)]
  refine sep_mono ?_ .rfl
  unfold Pipeline.arrBufs
  rw [bigSep_eq_bigSepL_of_eq [main_v1, main_v2] (by decide) (by decide), arrays1_eq]
  show (iprop((((c : Thread nD τ).loc main_v1) ↦{fullShare} V2 m c main_v1) ∗ (((c : Thread nD τ).loc main_v2) ↦{fullShare} V2 m c main_v2)) : sProp 𝕄)
    ⊢ iprop((((c : Thread nD τ).loc main_v1) ↦{fullShare.left} V2 m c main_v1) ∗ (((c : Thread nD τ).loc main_v1) ↦{fullShare.right.left} V2 m c main_v1)
          ∗ (((c : Thread nD τ).loc main_v1) ↦{fullShare.right.right} V2 m c main_v1) ∗ (((c : Thread nD τ).loc main_v2) ↦{fullShare} V2 m c main_v2))
  iintro ⟨H1, H2⟩
  ihave H1' := (pointsTo_share (PosShare.mem_left_op_right fullShare)).1 $$ H1
  icases H1' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H2

/-- The attention kernel never writes the array its inputs read: after every point it is as found. -/
theorem arrAt1_in (c : Dev nD) (w : Fin cfg1.W) (hw : w ≠ 3) (n : Nat) : (dat1 (V2 m) c).arrAt w n = V2 m c (Pipeline.arrRef spec1 w) := by
  match w, hw with
  | ⟨0, _⟩, _ => exact ((dat1 (V2 m) c).arrAt_in 0 rfl _).trans (A_eq1 (V2 m) c 0)
  | ⟨1, _⟩, _ => exact ((dat1 (V2 m) c).arrAt_in 1 rfl _).trans (A_eq1 (V2 m) c 1)
  | ⟨2, _⟩, _ => exact ((dat1 (V2 m) c).arrAt_in 2 rfl _).trans (A_eq1 (V2 m) c 2)
  | ⟨3, _⟩, h => exact absurd rfl h

/-- Leaving it: the three shares of the input array, still at the contents found, join to the whole; the output array
    comes back at what the write-backs left; no other buffer has changed. -/
theorem exit1 (c : Dev nD) :
    iprop((dat1 (V2 m) c).arrays ((dat1 (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held c (W3 m c)]
  rw [Pipeline.unscopedBufs_split₀ cfgs 1 (by decide) c (V3 m c)]
  show _ ⊢ (iprop(Pipeline.arrBufs spec1 c (V3 m c) ∗ Pipeline.unscopedRest spec1 c (V3 m c)) : sProp 𝕄)
  have hrest : (Pipeline.unscopedRest (Ix := Unit) (Name := ℕ) (U := UR sig nD τ) (Lvl := ℕ) spec1 c (V3 m c) : sProp 𝕄)
      = Pipeline.unscopedRest spec1 c (V2 m c) := by
    unfold Pipeline.unscopedRest
    refine bigSep_congr fun b hb => ?_
    have hb' : b ≠ main_v2 := fun e => (Finset.mem_sdiff.mp hb).2 (e ▸ Finset.mem_image.mpr ⟨3, Finset.mem_univ _, rfl⟩)
    rw [show V3 m c b = V2 m c b from W3_of_ne m c b hb']
  rw [hrest]
  refine sep_mono ?_ .rfl
  unfold Pipeline.arrBufs
  rw [bigSep_eq_bigSepL_of_eq [main_v1, main_v2] (by decide) (by decide), arrays1_eq,
    arrAt1_in m c 0 (by decide), arrAt1_in m c 1 (by decide), arrAt1_in m c 2 (by decide)]
  show (iprop((((c : Thread nD τ).loc main_v1) ↦{fullShare.left} V2 m c main_v1) ∗ (((c : Thread nD τ).loc main_v1) ↦{fullShare.right.left} V2 m c main_v1)
          ∗ (((c : Thread nD τ).loc main_v1) ↦{fullShare.right.right} V2 m c main_v1) ∗ (((c : Thread nD τ).loc main_v2) ↦{fullShare} (dat1 (V2 m) c).arrAt 3 cfg1.N)) : sProp 𝕄)
    ⊢ iprop((((c : Thread nD τ).loc main_v1) ↦{fullShare} V3 m c main_v1) ∗ (((c : Thread nD τ).loc main_v2) ↦{fullShare} V3 m c main_v2))
  rw [show V3 m c main_v1 = V2 m c main_v1 from W3_of_ne m c main_v1 (by decide), show V3 m c main_v2 = (dat1 (V2 m) c).arrAt 3 cfg1.N from W3_out m c]
  iintro ⟨Hl, Hrl, Hrr, H2⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H2

/-! ## The kernels' records, each entered with the contents of the boundary before it -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers: the core's generator register at some state, and nothing owed to another core. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without what is owed: every buffer at the return contents, the generator register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Kernel 0 between the boundary before it and the one after it: its arrays are taken out of the core's buffers at the
    contents it finds and put back at what its write-backs leave; everything else passes by. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel between its two boundaries. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Kernel 2 between the boundary before it and the one after it: its arrays are taken out of the core's buffers at the
    contents it finds and put back at what its write-backs leave; everything else passes by. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its six segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- Every weakly fair execution of the program from memory `m` with zero counters terminates, nothing faulting, in a
    memory whose every unscoped buffer holds the return contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Run

end
-- ==== Proof.Spec.lean ====
/-
  The mathematics both programs compute, stated once and free of either program: multi-head self-attention over
  B·N = 8192 token rows, hidden width 1024, 16 heads of width 64, on the extended reals.

    Q = X · Wqkv                                     8192 × 3072: per row the queries, keys and values of all heads
    s(r, h, m)  = (Σ_d Q[r, 64h + d] · Q[key row m of r's batch, 1024 + 64h + d]) · 1/8
    mx(r, h)    = the maximum over the 2048 keys m of s(r, h, m), taken from −∞
    p(r, h, m)  = exp(s − mx) / Σ_m' exp(s(r, h, m') − mx)
    A[r, 64h+d] = Σ_m p(r, h, m) · Q[key row m of r's batch, 2048 + 64h + d]
    out[r, o]   = Σ_c A[r, c] · Wout[c, o] + bias[o]

  A token row r = 2048·b + n lies in batch b = r / 2048, whose 2048 key rows are 2048·b + m. Every sum is a finite sum
  in the commutative monoid of extended reals, so no order or tiling of a sum is recorded; the maximum is a fold of the
  commutative, associative `max`. The scale 1/8 and −∞ are kept as the f32 words both programs carry.
-/
import Idealize.ShloMosaic.PureOps.Ideal
import Idealize.ShloMosaic.Lib.ValueIdx

noncomputable section

namespace Cert.Attn

open Idealize.ShloMosaic Idealize.ShloMosaic.ValueIdx

/-- Arrays of extended reals over a literal two-axis shape. -/
abbrev Arr2 (a b : Nat) : Type := (⟨2, ![a, b]⟩ : Shape).Idx → EReal

/-- A linear projection: row `r` of `X` against column `f` of `W`, contracted over the 1024 hidden coordinates. -/
def proj {n : Nat} (X : Arr2 8192 1024) (W : Arr2 1024 n) (r : Fin 8192) (f : Fin n) : EReal :=
  ∑ k : Fin 1024, X (ix2 r k) * W (ix2 k f)

/-- The projected array `X · W`. -/
def projA {n : Nat} (X : Arr2 8192 1024) (W : Arr2 1024 n) : Arr2 8192 n :=
  fun j => proj X W ⟨(j 0).val, (j 0).isLt⟩ ⟨(j 1).val, (j 1).isLt⟩

/-- Column of head `h`'s query coordinate `d` in a row of the 3072-wide projection. -/
def qcol (h : Fin 16) (d : Fin 64) : Fin 3072 := ⟨h.val * 64 + d.val, by have := h.isLt; have := d.isLt; omega⟩
/-- Column of head `h`'s key coordinate `d`. -/
def kcol (h : Fin 16) (d : Fin 64) : Fin 3072 := ⟨1024 + h.val * 64 + d.val, by have := h.isLt; have := d.isLt; omega⟩
/-- Column of head `h`'s value coordinate `d`. -/
def vcol (h : Fin 16) (d : Fin 64) : Fin 3072 := ⟨2048 + h.val * 64 + d.val, by have := h.isLt; have := d.isLt; omega⟩
/-- Key row `m` of the batch that token row `r` lies in. -/
def krow (r : Fin 8192) (m : Fin 2048) : Fin 8192 := ⟨r.val / 2048 * 2048 + m.val, by have := r.isLt; have := m.isLt; omega⟩
/-- Column of head `h`'s output coordinate `d` in a row of the 1024-wide attention output. -/
def ocol (h : Fin 16) (d : Fin 64) : Fin 1024 := ⟨h.val * 64 + d.val, by have := h.isLt; have := d.isLt; omega⟩

/-- The scaled logit of query row `r` against key `m`, in head `h`. -/
def score (Q : Arr2 8192 3072) (r : Fin 8192) (h : Fin 16) (m : Fin 2048) : EReal :=
  (∑ d : Fin 64, Q (ix2 r (qcol h d)) * Q (ix2 (krow r m) (kcol h d))) * Ideal.ofBits .f32 0x3E000000#32

/-- The row's largest logit, folded from −∞. -/
def rowmax (Q : Arr2 8192 3072) (r : Fin 8192) (h : Fin 16) : EReal :=
  (Finset.univ : Finset (Fin 2048)).fold max (Ideal.ofBits .f32 0xFF800000#32) (fun m => score Q r h m)

/-- The shifted exponential of a logit. -/
def pexp (Q : Arr2 8192 3072) (r : Fin 8192) (h : Fin 16) (m : Fin 2048) : EReal :=
  Ideal.exp (score Q r h m - rowmax Q r h)

/-- The softmax denominator of the row. -/
def rowsum (Q : Arr2 8192 3072) (r : Fin 8192) (h : Fin 16) : EReal :=
  ∑ m : Fin 2048, pexp Q r h m

/-- The attention weight of key `m`. -/
def prob (Q : Arr2 8192 3072) (r : Fin 8192) (h : Fin 16) (m : Fin 2048) : EReal :=
  Ideal.div (pexp Q r h m) (rowsum Q r h)

/-- Head `h`'s output coordinate `d` for token row `r`: the weights against the values. -/
def attn (Q : Arr2 8192 3072) (r : Fin 8192) (h : Fin 16) (d : Fin 64) : EReal :=
  ∑ m : Fin 2048, prob Q r h m * Q (ix2 (krow r m) (vcol h d))

/-- The attention output as an 8192 × 1024 array: column `c` is coordinate `c % 64` of head `c / 64`. -/
def attnA (Q : Arr2 8192 3072) : Arr2 8192 1024 :=
  fun j => attn Q ⟨(j 0).val, (j 0).isLt⟩ ⟨(j 1).val / 64, by have h : (j 1).val < 1024 := (j 1).isLt; show (j 1).val / 64 < 16; omega⟩
    ⟨(j 1).val % 64, Nat.mod_lt _ (by decide)⟩

/-- The output projection with its bias row. -/
def outp (A : Arr2 8192 1024) (W : Arr2 1024 1024) (B : Arr2 1 1024) (r : Fin 8192) (o : Fin 1024) : EReal :=
  proj A W r o + B (ix2 0 o)

/-- The layer's result as an 8192 × 1024 array. -/
def outA (A : Arr2 8192 1024) (W : Arr2 1024 1024) (B : Arr2 1 1024) : Arr2 8192 1024 :=
  fun j => outp A W B ⟨(j 0).val, (j 0).isLt⟩ ⟨(j 1).val, (j 1).isLt⟩

/-- The whole layer on token rows: projection, attention, output projection. -/
def layer (X : Arr2 8192 1024) (Wqkv : Arr2 1024 3072) (Wout : Arr2 1024 1024) (B : Arr2 1 1024) : Arr2 8192 1024 :=
  outA (attnA (projA X Wqkv)) Wout B

theorem projA_apply {n : Nat} (X : Arr2 8192 1024) (W : Arr2 1024 n) (r : Fin 8192) (f : Fin n) :
    projA X W (ix2 r f) = proj X W r f := rfl

theorem attnA_apply (Q : Arr2 8192 3072) (r : Fin 8192) (h : Fin 16) (d : Fin 64) :
    attnA Q (ix2 r (ocol h d)) = attn Q r h d := by
  have hh := h.isLt; have hd := d.isLt
  have e1 : (h.val * 64 + d.val) / 64 = h.val := by omega
  have e2 : (h.val * 64 + d.val) % 64 = d.val := by omega
  show attn Q _ ⟨(h.val * 64 + d.val) / 64, _⟩ ⟨(h.val * 64 + d.val) % 64, _⟩ = _
  congr 1 <;> exact Fin.ext (by assumption)

theorem outA_apply (A : Arr2 8192 1024) (W : Arr2 1024 1024) (B : Arr2 1 1024) (r : Fin 8192) (o : Fin 1024) :
    outA A W B (ix2 r o) = outp A W B r o := rfl

end Cert.Attn

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Val0.lean ====
/-
  The first kernel's result array. Each of its 16 × 6 grid points multiplies a 512 × 1024 block of token rows by a
  1024 × 512 block of weight columns; the 512 × 512 product, stored whole, is the block of the projected array X · W at
  block row t / 6 and block column t % 6. Since every block is a block of the one function `projA X W` and the blocks
  tile the 8192 × 3072 array, the array ends holding `projA X W`.
-/
import proofs.«162601_j52441550684580_2_alg».proof.Proof.Spec
import proofs.«162601_j52441550684580_2_alg».proof.Proof.RunDefsIdeal
import proofs.«162601_j52441550684580_2_alg».proof.Proof.LibDot
import Idealize.ShloMosaic.Lib.Pipeline.Value
import Idealize.ShloMosaic.Lib.ValueIdx

noncomputable section

namespace Cert.Attn.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run

theorem hz : (![0, 0] : Fin 2 → Nat) = fun _ => 0 := funext fun a => by fin_cases a <;> rfl

/-- The stored block at row `p`, column `q`: row `p` of the token block against column `q` of the weight block. -/
theorem pay0_apply (x0 : Vec Ideal S512x1024 .f32) (x1 : Vec Ideal S1024x512 .f32) (p : Fin 512) (q : Fin 512) :
    k0_pay1 (F := Ideal) x0 x1 (ix2 p q) = ∑ k : Fin 1024, x0 (ix2 p k) * x1 (ix2 k q) := by
  unfold k0_pay1
  rw [truncf_apply]
  refine (Cert.LibDot.matmul_zero_plain_apply (M := 512) (K := 1024) (N := 512)
    dot_S512x1024_S1024x512_S512x512_1_0_0_1_n_n rfl rfl rfl rfl rfl rfl none _ _ (ix2 p q)).trans ?_
  refine Finset.sum_congr rfl fun k _ => ?_
  rw [truncf_apply, truncf_apply, shapeCast_self]

/-- The block indices of the three windows at a grid point: point `t` is block row `t / 6`, block column `t % 6`; the
    token window follows the block row, the weight window the block column. -/
theorem idx0 : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = t.val / 6 ∧ win0_2.index t (1 : Fin 2) = t.val % 6 :=
  (by decide +kernel : ∀ t : Fin grid0.N, _)

section
variable (V : (c : Dev nD) → (b : Ref sig .tc) → Buf (Elt Ideal) ((c : Thread nD τ).loc b))

/-- The token window's block at point `t` is rows `512 (t / 6) …` of the token array. -/
theorem iblk0_0_apply (c : Dev nD) (t : Fin cfg0.N) (x : S512x1024.Idx) (k : S8192x1024.Idx)
    (hk0 : (k 0).val = t.val / 6 * 512 + (x 0).val) (hk1 : (k 1).val = (x 1).val) :
    (iblk0 (F := Ideal) V c 0 t : Vec Ideal S512x1024 .f32) x = (V c main_v0 : S8192x1024.Idx → EReal) k := by
  obtain ⟨e0, e1, -⟩ := idx0 t
  unfold iblk0
  rw [View.read_apply]
  show V c main_v0 _ = V c main_v0 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weight window's block at point `t` is columns `512 (t % 6) …` of the weight array. -/
theorem iblk0_1_apply (c : Dev nD) (t : Fin cfg0.N) (x : S1024x512.Idx) (k : S1024x3072.Idx)
    (hk0 : (k 0).val = (x 0).val) (hk1 : (k 1).val = t.val % 6 * 512 + (x 1).val) :
    (iblk0 (F := Ideal) V c 1 t : Vec Ideal S1024x512 .f32) x = (V c main_arg1 : S1024x3072.Idx → EReal) k := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t 0 * 1024 + 1 * (x 0).val = (k 0).val; rw [e0, hk0]; omega
  | ⟨1, _⟩ => show win0_1.index t 1 * 512 + 1 * (x 1).val = (k 1).val; rw [e1, hk1]; omega

/-- What point `t` writes back is its block of `projA X W`. -/
theorem flushed0_eq (c : Dev nD) (t : Fin cfg0.N) :
    (dat0 (F := Ideal) V c).flushed 2 t
      = ((cfg0.win 2).blk t).view.read (Elt Ideal) (Cert.Attn.projA (V c main_v0) (V c main_arg1)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x512) hz]
  obtain ⟨-, -, -, -, e0, e1⟩ := idx0 t
  funext j
  obtain ⟨p, q, rfl⟩ : ∃ (p : Fin 512) (q : Fin 512), j = ix2 p q := ⟨j 0, j 1, eq_ix2 j⟩
  show k0_pay1 (F := Ideal) (iblk0 V c 0 t) (iblk0 V c 1 t) (ix2 p q)
    = Cert.Attn.projA (V c main_v0) (V c main_arg1) (((cfg0.win 2).blk t).view.emb (ix2 p q))
  refine (pay0_apply (iblk0 V c 0 t) (iblk0 V c 1 t) p q).trans ?_
  unfold Cert.Attn.projA Cert.Attn.proj
  refine Finset.sum_congr rfl fun k _ => ?_
  refine congrArg₂ (· * ·) (iblk0_0_apply V c t _ _ ?_ ?_) (iblk0_1_apply V c t _ _ ?_ ?_)
  · show win0_2.index t 0 * 512 + 1 * p.val = t.val / 6 * 512 + p.val
    rw [e0]; omega
  · rfl
  · rfl
  · show win0_2.index t 1 * 512 + 1 * q.val = t.val % 6 * 512 + q.val
    rw [e1]; omega

/-- An index of the result array is in point `t`'s block iff each coordinate is in the block's range on its axis. -/
theorem mem_blk0 (t : Fin cfg0.N) (i : S8192x3072.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- Row `r`, column `f` of the result lies in the block of the point at block row `r / 512`, block column `f / 512`. -/
theorem cover0 (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 96 := N_0
  let t : Fin cfg0.N := ⟨(i 0).val / 512 * 6 + (i 1).val / 512, by rw [hN]; omega⟩
  have ht : t.val = (i 0).val / 512 * 6 + (i 1).val / 512 := rfl
  obtain ⟨-, -, -, -, e0, e1⟩ := idx0 t
  refine ⟨t, flush0_2 t, ?_⟩
  rw [mem_blk0]
  intro a
  match a with
  | ⟨0, _⟩ =>
    show win0_2.index t 0 * 512 ≤ (i 0).val ∧ (i 0).val < win0_2.index t 0 * 512 + 512
    rw [e0, ht]; omega
  | ⟨1, _⟩ =>
    show win0_2.index t 1 * 512 ≤ (i 1).val ∧ (i 1).val < win0_2.index t 1 * 512 + 512
    rw [e1, ht]; omega

/-- The first kernel's result array after its run: the projection of the token rows by the weight. -/
theorem final0 (c : Dev nD) :
    (dat0 (F := Ideal) V c).arrAt 2 cfg0.N = Cert.Attn.projA (V c main_v0) (V c main_arg1) :=
  (dat0 V c).arrAt_eq_of_cover 2 (Cert.Attn.projA (V c main_v0) (V c main_arg1)) (fun t _ => flushed0_eq V c t) cover0

end

end Cert.Attn.KV

end
-- ==== Proof.Val2.lean ====
/-
  The last kernel's result array. Each of its 16 grid points multiplies a 512 × 1024 block of attention rows by the
  whole 1024 × 1024 output weight and adds the bias row to every row of the product; the 512 × 1024 result, stored
  whole, is block row t of `outA A W B`. The 16 block rows tile the 8192 × 1024 array, so it ends holding `outA A W B`.
-/
import proofs.«162601_j52441550684580_2_alg».proof.Proof.Spec
import proofs.«162601_j52441550684580_2_alg».proof.Proof.RunDefsIdeal
import proofs.«162601_j52441550684580_2_alg».proof.Proof.LibDot
import Idealize.ShloMosaic.Lib.Pipeline.Value
import Idealize.ShloMosaic.Lib.ValueIdx
import Idealize.ShloMosaic.Lib.ValueLayout

noncomputable section

namespace Cert.Attn.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run

theorem hz2 : (![0, 0] : Fin 2 → Nat) = fun _ => 0 := funext fun a => by fin_cases a <;> rfl

/-- The stored block at row `p`, column `o`: row `p` of the attention block against column `o` of the weight, plus
    the bias at `o`. -/
theorem pay2_apply (x0 : Vec Ideal S512x1024 .bf16) (x1 : Vec Ideal S1024x1024 .f32) (x2 : Vec Ideal S1x1024 .f32)
    (p : Fin 512) (o : Fin 1024) :
    k2_pay1 (F := Ideal) x0 x1 x2 (ix2 p o)
      = (∑ k : Fin 1024, x0 (ix2 p k) * x1 (ix2 k o)) + x2 (ix2 (0 : Fin 1) o) := by
  unfold k2_pay1
  rw [addf_apply]
  refine congrArg₂ (· + ·) ?_ ?_
  · refine (Cert.LibDot.matmul_zero_plain_apply (M := 512) (K := 1024) (N := 1024)
      dot_S512x1024_S1024x1024_S512x1024_1_0_0_1_n_n rfl rfl rfl rfl rfl rfl none _ _ (ix2 p o)).trans ?_
    refine Finset.sum_congr rfl fun k _ => ?_
    rw [truncf_apply, shapeCast_self]
  · refine (broadcastTo_1b_ab_apply _ _ p o).trans ?_
    rw [shapeCast_self]

/-- The block indices of the four windows at a grid point: point `t` is block row `t` of the attention rows and of
    the result; the weight and the bias are one block each. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- The attention window's block at point `t` is rows `512 t …` of the attention array. -/
theorem iblk2_0_apply (c : Dev nD) (t : Fin cfg2.N) (x : S512x1024.Idx) (k : S8192x1024.Idx)
    (hk0 : (k 0).val = t.val * 512 + (x 0).val) (hk1 : (k 1).val = (x 1).val) :
    (iblk2 (F := Ideal) V c 0 t : Vec Ideal S512x1024 .bf16) x = (V c main_v2 : S8192x1024.Idx → EReal) k := by
  obtain ⟨e0, e1, -⟩ := idx2 t
  unfold iblk2
  rw [View.read_apply]
  show V c main_v2 _ = V c main_v2 _
  congr 1
  funext a
  apply Fin.ext
  match a with
  | ⟨0, _⟩ => show win2_0.index t 0 * 512 + 1 * (x 0).val = (k 0).val; rw [e0, hk0]; omega
  | ⟨1, _⟩ => show win2_0.index t 1 * 1024 + 1 * (x 1).val = (k 1).val; rw [e1, hk1]; omega

/-- The weight window's block is the weight, at every point. -/
theorem iblk2_1_apply (c : Dev nD) (t : Fin cfg2.N) (x : S1024x1024.Idx) (k : S1024x1024.Idx)
    (hk0 : (k 0).val = (x 0).val) (hk1 : (k 1).val = (x 1).val) :
    (iblk2 (F := Ideal) V c 1 t : Vec Ideal S1024x1024 .f32) x = (V c main_arg2 : S1024x1024.Idx → EReal) k := by
  obtain ⟨-, -, e0, e1, -⟩ := idx2 t
  unfold iblk2
  rw [View.read_apply]
  show V c main_arg2 _ = V c main_arg2 _
  congr 1
  funext a
  apply Fin.ext
  match a with
  | ⟨0, _⟩ => show win2_1.index t 0 * 1024 + 1 * (x 0).val = (k 0).val; rw [e0, hk0]; omega
  | ⟨1, _⟩ => show win2_1.index t 1 * 1024 + 1 * (x 1).val = (k 1).val; rw [e1, hk1]; omega

/-- The bias window's block is the bias row, at every point. -/
theorem iblk2_2_apply (c : Dev nD) (t : Fin cfg2.N) (x : S1x1024.Idx) (k : S1x1024.Idx)
    (hk0 : (k 0).val = (x 0).val) (hk1 : (k 1).val = (x 1).val) :
    (iblk2 (F := Ideal) V c 2 t : Vec Ideal S1x1024 .f32) x = (V c main_v3 : S1x1024.Idx → EReal) k := by
  obtain ⟨-, -, -, -, e0, e1, -⟩ := idx2 t
  unfold iblk2
  rw [View.read_apply]
  show V c main_v3 _ = V c main_v3 _
  congr 1
  funext a
  apply Fin.ext
  match a with
  | ⟨0, _⟩ => show win2_2.index t 0 * 1 + 1 * (x 0).val = (k 0).val; rw [e0, hk0]; omega
  | ⟨1, _⟩ => show win2_2.index t 1 * 1024 + 1 * (x 1).val = (k 1).val; rw [e1, hk1]; omega

/-- What point `t` writes back is its block of `outA A W B`. -/
theorem flushed2_eq (c : Dev nD) (t : Fin cfg2.N) :
    (dat2 (F := Ideal) V c).flushed 3 t
      = ((cfg2.win 3).blk t).view.read (Elt Ideal) (Cert.Attn.outA (V c main_v2) (V c main_arg2) (V c main_v3)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2,
    View.ld_unit_zero (S := S1x1024) hz2]
  obtain ⟨-, -, -, -, -, -, e0, e1⟩ := idx2 t
  funext j
  obtain ⟨p, o, rfl⟩ : ∃ (p : Fin 512) (o : Fin 1024), j = ix2 p o := ⟨j 0, j 1, eq_ix2 j⟩
  show k2_pay1 (F := Ideal) (iblk2 V c 0 t) (iblk2 V c 1 t) (iblk2 V c 2 t) (ix2 p o)
    = Cert.Attn.outA (V c main_v2) (V c main_arg2) (V c main_v3) (((cfg2.win 3).blk t).view.emb (ix2 p o))
  refine (pay2_apply (iblk2 V c 0 t) (iblk2 V c 1 t) (iblk2 V c 2 t) p o).trans ?_
  unfold Cert.Attn.outA Cert.Attn.outp Cert.Attn.proj
  refine congrArg₂ (· + ·) (Finset.sum_congr rfl fun k _ => ?_) (iblk2_2_apply V c t _ _ ?_ ?_)
  · refine congrArg₂ (· * ·) (iblk2_0_apply V c t _ _ ?_ ?_) (iblk2_1_apply V c t _ _ ?_ ?_)
    · show win2_3.index t 0 * 512 + 1 * p.val = t.val * 512 + p.val
      rw [e0]; omega
    · rfl
    · rfl
    · show win2_3.index t 1 * 1024 + 1 * o.val = o.val
      rw [e1]; omega
  · rfl
  · show win2_3.index t 1 * 1024 + 1 * o.val = o.val
    rw [e1]; omega

/-- An index of the result array is in point `t`'s block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v4).slice (win2_3.rect t)).set ↔ _
  rw [View.set_slice_whole, Rect.mem_set_unit]
  exact Iff.rfl

/-- Row `r` of the result lies in the block of point `r / 512`. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := N_2
  let t : Fin cfg2.N := ⟨(i 0).val / 512, by rw [hN]; omega⟩
  have ht : t.val = (i 0).val / 512 := rfl
  obtain ⟨-, -, -, -, -, -, e0, e1⟩ := idx2 t
  refine ⟨t, flush2_3 t, ?_⟩
  rw [mem_blk2]
  intro a
  match a with
  | ⟨0, _⟩ =>
    show win2_3.index t 0 * 512 ≤ (i 0).val ∧ (i 0).val < win2_3.index t 0 * 512 + 512
    rw [e0, ht]; omega
  | ⟨1, _⟩ =>
    show win2_3.index t 1 * 1024 ≤ (i 1).val ∧ (i 1).val < win2_3.index t 1 * 1024 + 1024
    rw [e1]; omega

/-- The last kernel's result array after its run: the output projection of the attention rows, plus the bias. -/
theorem final2 (c : Dev nD) :
    (dat2 (F := Ideal) V c).arrAt 3 cfg2.N
      = Cert.Attn.outA (V c main_v2) (V c main_arg2) (V c main_v3) :=
  (dat2 V c).arrAt_eq_of_cover 3 (Cert.Attn.outA (V c main_v2) (V c main_arg2) (V c main_v3))
    (fun t _ => flushed2_eq V c t) cover2

end

end Cert.Attn.KV

end
-- ==== Proof.ValHost.lean ====
/-
  The three reshapes around the kernels, and what every other buffer keeps. The tokens enter the first kernel as 8192
  rows; the bias enters the last kernel as one row; the last kernel's 8192 rows return as four batches of 2048. A
  reshape writes its one result and nothing else, and a kernel writes only its result array, so each weight, the bias
  and each intermediate array reach the kernel that reads them unchanged.
-/
import proofs.«162601_j52441550684580_2_alg».proof.Proof.RunDefsIdeal
import Idealize.ShloMosaic.Lib.StableHlo.Run
import Idealize.ShloMosaic.Lib.ValueIdx

noncomputable section

namespace Cert.Attn.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run

section
variable (m : (ℓ : Loc nD τ sig) → Buf (Elt Ideal) ℓ)

/-- The first kernel finds the tokens as 8192 rows. -/
theorem hostV0 (c : Dev nD) :
    W1 (F := Ideal) m c (Proc.devRef .tc main_v0)
      = shapeCast S8192x1024 (m (c, Proc.devRef .tc main_arg0)) shapeCasts_S4x2048x1024_S8192x1024 := by
  show StableHlo.after hostOps0 _ (Proc.devRef .tc main_v0) = _
  after_results
  rfl

/-- The last kernel finds the bias as one row. -/
theorem hostV3 (c : Dev nD) :
    W4 (F := Ideal) m c (Proc.devRef .tc main_v3)
      = shapeCast S1x1024 (W3 m c (Proc.devRef .tc main_arg3)) shapeCasts_S1024_S1x1024 := by
  show StableHlo.after hostOps2 _ (Proc.devRef .tc main_v3) = _
  after_results
  rfl

/-- The program returns the last kernel's rows as four batches. -/
theorem hostV5 (c : Dev nD) :
    W6 (F := Ideal) m c (Proc.devRef .tc main_v5)
      = shapeCast S4x2048x1024 (W5 m c (Proc.devRef .tc main_v4)) shapeCasts_S8192x1024_S4x2048x1024 := by
  show StableHlo.after hostOps3 _ (Proc.devRef .tc main_v5) = _
  after_results
  rfl

/-- The first reshape leaves every buffer but its result as launched. -/
theorem W1_of_ne (c : Dev nD) (b : Ref sig .tc) (hb : b ≠ main_v0) :
    W1 (F := Ideal) m c (Proc.devRef .tc b) = m (c, Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The bias reshape leaves every buffer but its result as the second kernel left it. -/
theorem W4_of_ne (c : Dev nD) (b : Ref sig .tc) (hb : b ≠ main_v3) :
    W4 (F := Ideal) m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

end

end Cert.Attn.KV

end
-- ==== Proof.ValKernel.lean ====
/-
  The three kernels and the three reshapes composed. The tokens, as 8192 rows, are projected by the QKV weight (first
  kernel); the attention of that projection is taken head pair by head pair (second kernel, whose result array is
  assumed here as `attnA` of the array it reads); the output weight and the bias row are applied (third kernel); the
  8192 rows return as four batches. Between the steps each array reaches its reader unchanged, so what the program
  returns is the reshape of `layer` of the four arguments.
-/
import proofs.«162601_j52441550684580_2_alg».proof.Proof.Spec
import proofs.«162601_j52441550684580_2_alg».proof.Proof.RunDefsIdeal
import proofs.«162601_j52441550684580_2_alg».proof.Proof.Val0
import proofs.«162601_j52441550684580_2_alg».proof.Proof.Val2
import proofs.«162601_j52441550684580_2_alg».proof.Proof.ValHost

noncomputable section

namespace Cert.Attn.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run

/-- `outA` of equal arrays. -/
theorem outA_congr {A A' : Cert.Attn.Arr2 8192 1024} {W W' : Cert.Attn.Arr2 1024 1024} {B B' : Cert.Attn.Arr2 1 1024}
    (hA : A = A') (hW : W = W') (hB : B = B') : Cert.Attn.outA A W B = Cert.Attn.outA A' W' B' := by
  subst hA hW hB; rfl

section
variable (m : (ℓ : Loc nD τ sig) → Buf (Elt Ideal) ℓ)

/-- The QKV weight reaches the first kernel as launched. -/
theorem arg1_at_k0 (c : Dev nD) :
    W1 (F := Ideal) m c (Proc.devRef .tc main_arg1) = m (c, Proc.devRef .tc main_arg1) :=
  W1_of_ne m c main_arg1 (by decide)

/-- The second kernel finds the projection of the token rows. -/
theorem v1_at_k1 (c : Dev nD) :
    W2 (F := Ideal) m c (Proc.devRef .tc main_v1)
      = Cert.Attn.projA (shapeCast S8192x1024 (m (c, Proc.devRef .tc main_arg0)) shapeCasts_S4x2048x1024_S8192x1024)
          (m (c, Proc.devRef .tc main_arg1)) :=
  (W2_arr m c 2).trans ((final0 (V1 m) c).trans (congrArg₂ Cert.Attn.projA (hostV0 m c) (arg1_at_k0 m c)))

/-- The output weight reaches the last kernel as launched. -/
theorem arg2_at_k2 (c : Dev nD) :
    W4 (F := Ideal) m c (Proc.devRef .tc main_arg2) = m (c, Proc.devRef .tc main_arg2) :=
  (W4_of_ne m c main_arg2 (by decide)).trans ((W3_of_ne m c main_arg2 (by decide)).trans
    ((W2_of_ne m c main_arg2 (by decide)).trans (W1_of_ne m c main_arg2 (by decide))))

/-- The bias is as launched when it is reshaped. -/
theorem arg3_at_reshape (c : Dev nD) :
    W3 (F := Ideal) m c (Proc.devRef .tc main_arg3) = m (c, Proc.devRef .tc main_arg3) :=
  (W3_of_ne m c main_arg3 (by decide)).trans
    ((W2_of_ne m c main_arg3 (by decide)).trans (W1_of_ne m c main_arg3 (by decide)))

/-- The last kernel finds the bias as one row. -/
theorem v3_at_k2 (c : Dev nD) :
    W4 (F := Ideal) m c (Proc.devRef .tc main_v3)
      = shapeCast S1x1024 (m (c, Proc.devRef .tc main_arg3)) shapeCasts_S1024_S1x1024 :=
  (hostV3 m c).trans (congrArg (fun z => shapeCast S1x1024 z shapeCasts_S1024_S1x1024) (arg3_at_reshape m c))

/-- The last kernel finds the attention of the projection. -/
theorem v2_at_k2
    (hattn : ∀ (V : (c : Dev nD) → (b : Ref sig .tc) → Buf (Elt Ideal) ((c : Thread nD τ).loc b)) (c : Dev nD),
      (dat1 (F := Ideal) V c).arrAt 3 cfg1.N = Cert.Attn.attnA (V c main_v1))
    (c : Dev nD) :
    W4 (F := Ideal) m c (Proc.devRef .tc main_v2)
      = Cert.Attn.attnA (Cert.Attn.projA
          (shapeCast S8192x1024 (m (c, Proc.devRef .tc main_arg0)) shapeCasts_S4x2048x1024_S8192x1024)
          (m (c, Proc.devRef .tc main_arg1))) :=
  (W4_of_ne m c main_v2 (by decide)).trans ((W3_out m c).trans
    ((hattn (V2 m) c).trans (congrArg Cert.Attn.attnA (v1_at_k1 m c))))

/-- The last kernel's result array is the layer on the token rows. -/
theorem v4_after_k2
    (hattn : ∀ (V : (c : Dev nD) → (b : Ref sig .tc) → Buf (Elt Ideal) ((c : Thread nD τ).loc b)) (c : Dev nD),
      (dat1 (F := Ideal) V c).arrAt 3 cfg1.N = Cert.Attn.attnA (V c main_v1))
    (c : Dev nD) :
    W5 (F := Ideal) m c (Proc.devRef .tc main_v4)
      = Cert.Attn.layer (shapeCast S8192x1024 (m (c, Proc.devRef .tc main_arg0)) shapeCasts_S4x2048x1024_S8192x1024)
          (m (c, Proc.devRef .tc main_arg1)) (m (c, Proc.devRef .tc main_arg2))
          (shapeCast S1x1024 (m (c, Proc.devRef .tc main_arg3)) shapeCasts_S1024_S1x1024) :=
  (W5_arr m c 3).trans ((final2 (V4 m) c).trans
    (outA_congr (v2_at_k2 m hattn c) (arg2_at_k2 m c) (v3_at_k2 m c)))

end

/-- What the program returns: the layer on the token rows, as four batches of 2048 rows. -/
theorem kernel_value
    (hattn : ∀ (V : (c : Dev nD) → (b : Ref sig .tc) → Buf (Elt Ideal) ((c : Thread nD τ).loc b)) (c : Dev nD),
      (dat1 (F := Ideal) V c).arrAt 3 cfg1.N = Cert.Attn.attnA (V c main_v1))
    (m : (ℓ : Loc nD τ sig) → Buf (Elt Ideal) ℓ) (c : Dev nD) :
    W6 (F := Ideal) m c (Proc.devRef .tc main_v5)
      = shapeCast S4x2048x1024
          (Cert.Attn.layer (shapeCast S8192x1024 (m (c, Proc.devRef .tc main_arg0)) shapeCasts_S4x2048x1024_S8192x1024)
            (m (c, Proc.devRef .tc main_arg1)) (m (c, Proc.devRef .tc main_arg2))
            (shapeCast S1x1024 (m (c, Proc.devRef .tc main_arg3)) shapeCasts_S1024_S1x1024))
          shapeCasts_S8192x1024_S4x2048x1024 :=
  (hostV5 m c).trans (congrArg (fun z => shapeCast S4x2048x1024 z shapeCasts_S8192x1024_S4x2048x1024)
    (v4_after_k2 m hattn c))

end Cert.Attn.KV

end
-- ==== Proof.Val1Spec.lean ====
/-
  One head of the attention kernel on the blocks it is handed: a 512 × 128 query block and 2048 × 128 key and value
  blocks holding two heads side by side, the head at column offset `off` (0 or 64). For query row `p` of the block:
  the 64-term dot against key row `m` scaled by 1/8, the row's maximum over the 2048 keys folded from −∞, the shifted
  exponentials, their sum, and the weights against the value columns. This is the attention formula of the
  specification with the array's rows and columns replaced by the block's.
-/
import Idealize.ShloMosaic.PureOps.Ideal
import Idealize.ShloMosaic.Lib.ValueIdx

noncomputable section

namespace Cert.Attn.KV1

open Idealize.ShloMosaic Idealize.ShloMosaic.ValueIdx

/-- Blocks of extended reals over a literal two-axis shape. -/
abbrev Blk (a b : Nat) : Type := (⟨2, ![a, b]⟩ : Shape).Idx → EReal

/-- Column `off + e` of a 128-wide block: coordinate `e` of the head at offset `off`. -/
def col (off : Nat) (hoff : off + 64 ≤ 128) (e : Fin 64) : Fin 128 := ⟨off + e.val, by have := e.isLt; omega⟩

/-- The scaled logit of the block's query row `p` against key row `m`. -/
def bscore (off : Nat) (hoff : off + 64 ≤ 128) (xq : Blk 512 128) (xk : Blk 2048 128) (p : Fin 512) (m : Fin 2048) : EReal :=
  (∑ e : Fin 64, xq (ix2 p (col off hoff e)) * xk (ix2 m (col off hoff e))) * Ideal.ofBits .f32 0x3E000000#32

/-- The row's largest logit, folded from −∞. -/
def bmax (off : Nat) (hoff : off + 64 ≤ 128) (xq : Blk 512 128) (xk : Blk 2048 128) (p : Fin 512) : EReal :=
  (Finset.univ : Finset (Fin 2048)).fold max (Ideal.ofBits .f32 0xFF800000#32) (fun m => bscore off hoff xq xk p m)

/-- The shifted exponential of a logit. -/
def bexp (off : Nat) (hoff : off + 64 ≤ 128) (xq : Blk 512 128) (xk : Blk 2048 128) (p : Fin 512) (m : Fin 2048) : EReal :=
  Ideal.exp (bscore off hoff xq xk p m - bmax off hoff xq xk p)

/-- The softmax denominator of the row. -/
def bsum (off : Nat) (hoff : off + 64 ≤ 128) (xq : Blk 512 128) (xk : Blk 2048 128) (p : Fin 512) : EReal :=
  ∑ m : Fin 2048, bexp off hoff xq xk p m

/-- The head's output coordinate `d` for the block's query row `p`. -/
def headOut (off : Nat) (hoff : off + 64 ≤ 128) (xq : Blk 512 128) (xk xv : Blk 2048 128) (p : Fin 512) (d : Fin 64) : EReal :=
  ∑ m : Fin 2048, Ideal.div (bexp off hoff xq xk p m) (bsum off hoff xq xk p) * xv (ix2 m (col off hoff d))

end Cert.Attn.KV1

end
-- ==== Proof.Val1.Block.lean ====
/-
  One head on the blocks is the specification's attention on the array the blocks are cut from.

  The query block holds rows R + p (p < 512) and columns 128·g + e (e < 128) of the 8192 × 3072 projection Q, the key
  block rows 2048·b + m and columns 128·(8 + g) + e, the value block rows 2048·b + m and columns 128·(16 + g) + e, with
  R + p in batch b. For the head h whose 64 columns sit at offset `off` of the pair (64·h = 128·g + off) the block's
  logits, row maximum, shifted exponentials, their sum and the head output are then the specification's at token row
  R + p and head h.
-/
import proofs.«162601_j52441550684580_2_alg».proof.Proof.Spec
import proofs.«162601_j52441550684580_2_alg».proof.Proof.Val1Spec

noncomputable section

namespace Cert.Attn.KV1

open Idealize.ShloMosaic Idealize.ShloMosaic.ValueIdx

section Block
variable (Q : Arr2 8192 3072) (xq : Blk 512 128) (xk xv : Blk 2048 128) (R b g : Nat)
  (hq : ∀ (p : Fin 512) (e : Fin 128) (r : Fin 8192) (f : Fin 3072), r.val = R + p.val → f.val = g * 128 + e.val →
    xq (ix2 p e) = Q (ix2 r f))
  (hk : ∀ (m : Fin 2048) (e : Fin 128) (r : Fin 8192) (f : Fin 3072), r.val = b * 2048 + m.val →
    f.val = (8 + g) * 128 + e.val → xk (ix2 m e) = Q (ix2 r f))
  (hv : ∀ (m : Fin 2048) (e : Fin 128) (r : Fin 8192) (f : Fin 3072), r.val = b * 2048 + m.val →
    f.val = (16 + g) * 128 + e.val → xv (ix2 m e) = Q (ix2 r f))
  (off : Nat) (hoff : off + 64 ≤ 128) (h : Fin 16) (hh : h.val * 64 = g * 128 + off)
  (p : Fin 512) (r : Fin 8192) (hr : r.val = R + p.val) (hb : r.val / 2048 = b)

include hq hk hh hr hb

theorem bscore_eq (m : Fin 2048) : bscore off hoff xq xk p m = score Q r h m := by
  unfold bscore score
  refine congrArg (fun s : EReal => s * Ideal.ofBits .f32 0x3E000000#32) ?_
  refine Finset.sum_congr rfl fun e _ => ?_
  refine congrArg₂ (· * ·) (hq p (col off hoff e) r (qcol h e) hr ?_) (hk m (col off hoff e) (krow r m) (kcol h e) ?_ ?_)
  · show h.val * 64 + e.val = g * 128 + (off + e.val)
    omega
  · show r.val / 2048 * 2048 + m.val = b * 2048 + m.val
    rw [hb]
  · show 1024 + h.val * 64 + e.val = (8 + g) * 128 + (off + e.val)
    omega

theorem bmax_eq : bmax off hoff xq xk p = rowmax Q r h := by
  unfold bmax rowmax
  exact congrArg (fun f => Finset.fold max (Ideal.ofBits .f32 0xFF800000#32) f (Finset.univ : Finset (Fin 2048)))
    (funext fun m => bscore_eq Q xq xk R b g hq hk off hoff h hh p r hr hb m)

theorem bexp_eq (m : Fin 2048) : bexp off hoff xq xk p m = pexp Q r h m := by
  unfold bexp pexp
  rw [bscore_eq Q xq xk R b g hq hk off hoff h hh p r hr hb m, bmax_eq Q xq xk R b g hq hk off hoff h hh p r hr hb]

theorem bsum_eq : bsum off hoff xq xk p = rowsum Q r h := by
  unfold bsum rowsum
  exact Finset.sum_congr rfl fun m _ => bexp_eq Q xq xk R b g hq hk off hoff h hh p r hr hb m

include hv in
theorem headOut_eq (d : Fin 64) : headOut off hoff xq xk xv p d = attn Q r h d := by
  unfold headOut attn prob
  refine Finset.sum_congr rfl fun m _ => ?_
  rw [bexp_eq Q xq xk R b g hq hk off hoff h hh p r hr hb m, bsum_eq Q xq xk R b g hq hk off hoff h hh p r hr hb]
  refine congrArg (fun z : EReal => Ideal.div (pexp Q r h m) (rowsum Q r h) * z) ?_
  refine hv m (col off hoff d) (krow r m) (vcol h d) ?_ ?_
  · show r.val / 2048 * 2048 + m.val = b * 2048 + m.val
    rw [hb]
  · show 2048 + h.val * 64 + d.val = (16 + g) * 128 + (off + d.val)
    omega

end Block

end Cert.Attn.KV1

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Val1Pay.lean ====
/-
  One head of the attention kernel's body, read entry by entry. The body takes a 512 × 128 query block and 2048 × 128
  key and value blocks that hold two heads side by side, cuts out the 64 columns of one head (offset 0 or 64), and
  computes, for each query row p: the logits s(p, m) = (Σ_e q(p, e) · k(m, e)) · 1/8 against the 2048 key rows, their
  maximum from −∞, the exponentials exp(s − max), their sum, and Σ_m (exp / sum)(p, m) · v(m, d). Each step is read
  at an index: a product into the zero accumulator is the plain sum over the contracted coordinate, a reduction along
  the key axis is a fold or a sum over the 2048 keys, the per-row column laid beside the matrix reads the row's value,
  and a change of float format is the identity on extended reals. The two heads differ only in the column offset, so
  the chain is written once over the offset and used at 0 and at 64.
-/
import proofs.«162601_j52441550684580_2_alg».proof.Proof.Gen.KernelIdeal.Skeleton
import proofs.«162601_j52441550684580_2_alg».proof.Proof.Val1Spec
import proofs.«162601_j52441550684580_2_alg».proof.Proof.LibDot
import proofs.«162601_j52441550684580_2_alg».proof.Proof.LibDotT
import proofs.«162601_j52441550684580_2_alg».proof.Proof.LibColumn
import Idealize.ShloMosaic.Lib.ValueIdx
import Idealize.ShloMosaic.Lib.Pipeline.Value
import Idealize.ShloMosaic.PureOps.Ideal.Laws

noncomputable section

namespace Cert.Attn.KV1

open Idealize.ShloMosaic Idealize.ShloMosaic.ValueIdx
open Cert.KernelIdeal Cert.KernelIdeal.Gen

/-- The 64 columns from `off` of a 128-wide block, read at row `p`, coordinate `e`: the block at column `off + e`. -/
theorem cols_apply {n : Nat} (off : Nat) (hoff : off + 64 ≤ 128) (x : Blk n 128)
    (h : (⟨2, ![n, 128]⟩ : Shape).Slices ![0, off] ⟨2, ![n, 64]⟩) (p : Fin n) (e : Fin 64) :
    extractStridedSlice ⟨2, ![n, 64]⟩ ![0, off] x h (ix2 p e) = x (ix2 p (col off hoff e)) :=
  extractStridedSlice_apply ![0, off] x h (ix2 p e) (ix2 p (col off hoff e)) fun a => by
    match a with
    | ⟨0, _⟩ => exact (Nat.zero_add _).symm
    | ⟨1, _⟩ => rfl

/-- Row `p` of the 512 × 2048 logits with key coordinate `m` put back on the reduced axis is the entry (p, m). -/
theorem lift_row (p : Fin 512) (m : Fin 2048) : reduces_S512x2048_S512.lift (ix1 p) m = ix2 p m :=
  funext fun a => Fin.ext (by match a with | ⟨0, _⟩ => rfl | ⟨1, _⟩ => rfl)

section Head

variable (off : Nat) (hoff : off + 64 ≤ 128)
  (hq : S512x128.Slices ![0, off] S512x64) (hk : S2048x128.Slices ![0, off] S2048x64)
  (xq : FVec Ideal S512x128 .bf16) (xk xv : FVec Ideal S2048x128 .bf16)

/-- The logits as the body computes them: the head's query columns against its key columns, contracted over the 64
    coordinates into the zero accumulator, times the splat of one eighth. -/
def kscore : FVec Ideal S512x2048 .f32 :=
  mulf (matmul dot_S512x64_S2048x64_S512x2048_1_1_0_0_n_n none (extractStridedSlice S512x64 ![0, off] xq hq)
      (extractStridedSlice S2048x64 ![0, off] xk hk) (constant (F := Ideal) S512x2048 .f32 0x00000000#32))
    (broadcast S512x2048 (Scalar.ofBits (F := Ideal) .f32 0x3E000000#32))

theorem kscore_apply (p : Fin 512) (m : Fin 2048) : kscore off hq hk xq xk (ix2 p m) = bscore off hoff xq xk p m := by
  unfold kscore bscore
  rw [mulf_apply, broadcast_apply]
  refine congrArg₂ (· * ·) ?_ rfl
  refine (Cert.LibDotT.matmul_zero_transposed_apply dot_S512x64_S2048x64_S512x2048_1_1_0_0_n_n rfl rfl rfl rfl rfl rfl none
    _ _ (ix2 p m)).trans ?_
  refine Finset.sum_congr rfl fun e _ => ?_
  exact congrArg₂ (· * ·) (cols_apply off hoff xq hq p e) (cols_apply off hoff xk hk m e)

/-- The rows' maxima: the logits reduced along the key axis from the word of −∞. -/
def kmax : FVec Ideal S512 .f32 :=
  multiReduction .maximumf [1] S512 (kscore off hq hk xq xk) 0xFF800000#32 reduces_S512x2048_S512 (.inl rfl) rfl

theorem kmax_apply (p : Fin 512) : kmax off hq hk xq xk (ix1 p) = bmax off hoff xq xk p := by
  unfold kmax bmax
  refine (Ideal.multiReduction_maximumf_single (kscore off hq hk xq xk) 0xFF800000#32 reduces_S512x2048_S512 (.inl rfl) rfl
    (ix1 p)).trans ?_
  refine congrArg (fun f : Fin 2048 → EReal => Finset.fold max (Ideal.ofBits .f32 0xFF800000#32) f Finset.univ)
    (funext fun (m : Fin 2048) => ?_)
  show kscore off hq hk xq xk (reduces_S512x2048_S512.lift (ix1 p) m) = bscore off hoff xq xk p m
  rw [lift_row, kscore_apply off hoff]

/-- The shifted exponentials: each row's maximum, laid as a column beside the logits, subtracted before `exp`. -/
def kexp : FVec Ideal S512x2048 .f32 :=
  Idealize.ShloMosaic.exp (subf (kscore off hq hk xq xk)
    (broadcastTo S512x2048 (shapeCast S512x1 (kmax off hq hk xq xk) shapeCasts_S512_S512x1) broadcasts_S512x1_S512x2048))

theorem kexp_apply (p : Fin 512) (m : Fin 2048) : kexp off hq hk xq xk (ix2 p m) = bexp off hoff xq xk p m := by
  unfold kexp bexp
  show FloatOps.exp (subf (kscore off hq hk xq xk) _ (ix2 p m)) = _
  rw [Ideal.exp_def, subf_apply, kscore_apply off hoff, Cert.LibColumn.broadcastTo_a1_ab_apply,
    Cert.LibColumn.shapeCast_a_a1_apply, kmax_apply off hoff]

/-- The rows' denominators: the exponentials summed along the key axis. -/
def ksum : FVec Ideal S512 .f32 :=
  multiReduction .add [1] S512 (kexp off hq hk xq xk) 0x00000000#32 reduces_S512x2048_S512 (.inl rfl) rfl

theorem ksum_apply (p : Fin 512) : ksum off hq hk xq xk (ix1 p) = bsum off hoff xq xk p := by
  unfold ksum bsum
  refine (Ideal.multiReduction_add_single (kexp off hq hk xq xk) 0x00000000#32 reduces_S512x2048_S512 (.inl rfl) rfl
    (ix1 p)).trans ?_
  show ∑ m : Fin 2048, kexp off hq hk xq xk (reduces_S512x2048_S512.lift (ix1 p) m) = _
  refine Finset.sum_congr rfl fun m _ => ?_
  rw [lift_row, kexp_apply off hoff]

/-- The head's 512 × 64 output: the exponentials over their row sums, against the head's value columns, contracted over
    the 2048 keys into the zero accumulator. -/
def khead : FVec Ideal S512x64 .bf16 :=
  truncf .bf16 (matmul dot_S512x2048_S2048x64_S512x64_1_0_0_1_n_n none
    (truncf .bf16 (divf (kexp off hq hk xq xk)
      (broadcastTo S512x2048 (shapeCast S512x1 (ksum off hq hk xq xk) shapeCasts_S512_S512x1) broadcasts_S512x1_S512x2048))
      bitsLt_bf16_f32)
    (extractStridedSlice S2048x64 ![0, off] xv hk) (constant (F := Ideal) S512x64 .f32 0x00000000#32)) bitsLt_bf16_f32

theorem khead_apply (p : Fin 512) (d : Fin 64) : khead off hq hk xq xk xv (ix2 p d) = headOut off hoff xq xk xv p d := by
  unfold khead headOut
  rw [truncf_apply]
  refine (Cert.LibDot.matmul_zero_plain_apply dot_S512x2048_S2048x64_S512x64_1_0_0_1_n_n rfl rfl rfl rfl rfl rfl none
    _ _ (ix2 p d)).trans ?_
  refine Finset.sum_congr rfl fun m _ => ?_
  refine congrArg₂ (· * ·) ?_ (cols_apply off hoff xv hk m d)
  show truncf .bf16 _ bitsLt_bf16_f32 (ix2 p m) = _
  rw [truncf_apply, divf_apply, kexp_apply off hoff, Cert.LibColumn.broadcastTo_a1_ab_apply,
    Cert.LibColumn.shapeCast_a_a1_apply, ksum_apply off hoff]

end Head

/-- The first head's stored block is the head term at column offset 0 (the casts of the loaded blocks to their own
    shape are the identity). -/
theorem pay5_eq (xq : FVec Ideal S512x128 .bf16) (xk xv : FVec Ideal S2048x128 .bf16) :
    k1_pay5 (F := Ideal) xq xk xv = khead 0 slices_S512x128_o0_0_S512x64 slices_S2048x128_o0_0_S2048x64 xq xk xv := by
  unfold k1_pay5 k1_pay2 k1_pay3 k1_pay4 khead ksum kexp kmax kscore
  simp only [shapeCast_self]

/-- The second head's stored block — its value columns, exponentials and row sums are carried as three values — is the
    head term at column offset 64. -/
theorem pay1_eq (xq : FVec Ideal S512x128 .bf16) (xk xv : FVec Ideal S2048x128 .bf16) :
    k1_pay1 (F := Ideal) (k1_pay6 xv) (k1_pay7 xq xk) (k1_pay8 xq xk)
      = khead 64 slices_S512x128_o0_64_S512x64 slices_S2048x128_o0_64_S2048x64 xq xk xv := by
  unfold k1_pay1 k1_pay8 k1_pay7 k1_pay6 k1_pay2 k1_pay3 k1_pay4 khead ksum kexp kmax kscore
  simp only [shapeCast_self]

/-- Entry (p, d) of the first head's stored block: the head's output at column offset 0. -/
theorem pay_lo (xq : FVec Ideal S512x128 .bf16) (xk xv : FVec Ideal S2048x128 .bf16) (p : Fin 512) (d : Fin 64) :
    k1_pay5 (F := Ideal) xq xk xv (ix2 p d) = headOut 0 (by decide) xq xk xv p d := by
  rw [pay5_eq]
  exact khead_apply 0 (by decide) _ _ xq xk xv p d

/-- Entry (p, d) of the second head's stored block: the head's output at column offset 64. -/
theorem pay_hi (xq : FVec Ideal S512x128 .bf16) (xk xv : FVec Ideal S2048x128 .bf16) (p : Fin 512) (d : Fin 64) :
    k1_pay1 (F := Ideal) (k1_pay6 xv) (k1_pay7 xq xk) (k1_pay8 xq xk) (ix2 p d) = headOut 64 (by decide) xq xk xv p d := by
  rw [pay1_eq]
  exact khead_apply 64 (by decide) _ _ xq xk xv p d

end Cert.Attn.KV1

end
-- ==== Proof.Val1.lean ====
/-
  The attention kernel's result array. Its 4 × 8 × 4 grid runs over batch b, head pair g and query tile qi; point
  t = (8b + g)·4 + qi reads the 512 × 128 query block at block row 4b + qi, block column g of the 8192 × 3072
  projection Q, and the 2048 × 128 key and value blocks at block row b, block columns 8 + g and 16 + g of the same
  array, and stores the two heads' 512 × 64 outputs side by side as the 512 × 128 block at block row 4b + qi, block
  column g of the 8192 × 1024 result. Each stored entry is the specification's attention output of its token row and
  head; the blocks tile the result, so it ends holding `attnA Q`.
-/
import proofs.«162601_j52441550684580_2_alg».proof.Proof.Spec
import proofs.«162601_j52441550684580_2_alg».proof.Proof.RunDefsIdeal
import proofs.«162601_j52441550684580_2_alg».proof.Proof.Val1Spec
import proofs.«162601_j52441550684580_2_alg».proof.Proof.Val1.Block
import proofs.«162601_j52441550684580_2_alg».proof.Proof.Val1Pay
import Idealize.ShloMosaic.Lib.Pipeline.Value
import Idealize.ShloMosaic.Lib.ValueIdx

noncomputable section

namespace Cert.Attn.KV1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run

theorem hz1 : (![0, 0] : Fin 2 → Nat) = fun _ => 0 := funext fun a => by fin_cases a <;> rfl

/-- The block indices of the four windows at a grid point: point `t` is batch `t / 32`, head pair `t / 4 % 8`, query
    tile `t % 4`. -/
theorem idx1 : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = 8 + t.val / 4 % 8
    ∧ win1_2.index t (0 : Fin 2) = t.val / 32 ∧ win1_2.index t (1 : Fin 2) = 16 + t.val / 4 % 8
    ∧ win1_3.index t (0 : Fin 2) = t.val / 32 * 4 + t.val % 4 ∧ win1_3.index t (1 : Fin 2) = t.val / 4 % 8 :=
  (by decide +kernel : ∀ t : Fin grid1.N, _)

/-! ### The stored block: two heads side by side -/

/-- Columns 0–63 of the stored block hold the first head's payload. -/
theorem out1_3_lo (x0 : Vec Ideal S512x128 .bf16) (x1 x2 : Vec Ideal S2048x128 .bf16) (p : Fin 512) (d : Fin 64) :
    out1_3 (F := Ideal) x0 x1 x2 (ix2 p (⟨d.val, by have := d.isLt; omega⟩ : Fin 128))
      = k1_pay5 (F := Ideal) x0 x1 x2 (ix2 p d) := by
  have hd := d.isLt
  unfold out1_3
  simp only [View.ld_unit_zero (S := S512x128) hz1, View.ld_unit_zero (S := S2048x128) hz1]
  rw [View.canon_cons_of_not_mem]
  · have e : (ix2 p (⟨d.val, by omega⟩ : Fin 128) : S512x128.Idx) = r1_lo.emb (ix2 p d) := by
      funext a
      apply Fin.ext
      match a with
      | ⟨0, _⟩ => show p.val = 0 + 1 * p.val; omega
      | ⟨1, _⟩ => show d.val = 0 + 1 * d.val; omega
    rw [e, View.canon_cons_emb]
  · show ¬ _ ∈ r1_hi.set
    rw [Rect.mem_set_unit]
    intro hm
    have h1 := (hm (1 : Fin 2)).1
    have h1' : 64 ≤ d.val := h1
    omega

/-- Columns 64–127 of the stored block hold the second head's payload. -/
theorem out1_3_hi (x0 : Vec Ideal S512x128 .bf16) (x1 x2 : Vec Ideal S2048x128 .bf16) (p : Fin 512) (d : Fin 64) :
    out1_3 (F := Ideal) x0 x1 x2 (ix2 p (⟨64 + d.val, by have := d.isLt; omega⟩ : Fin 128))
      = k1_pay1 (F := Ideal) (k1_pay6 x2) (k1_pay7 x0 x1) (k1_pay8 x0 x1) (ix2 p d) := by
  have hd := d.isLt
  unfold out1_3
  simp only [View.ld_unit_zero (S := S512x128) hz1, View.ld_unit_zero (S := S2048x128) hz1]
  have e : (ix2 p (⟨64 + d.val, by omega⟩ : Fin 128) : S512x128.Idx) = r1_hi.emb (ix2 p d) := by
    funext a
    apply Fin.ext
    match a with
    | ⟨0, _⟩ => show p.val = 0 + 1 * p.val; omega
    | ⟨1, _⟩ => show 64 + d.val = 64 + 1 * d.val; omega
  rw [e, View.canon_cons_emb]

section
variable (V : (c : Dev nD) → (b : Ref sig .tc) → Buf (Elt Ideal) ((c : Thread nD τ).loc b))

/-! ### The three input blocks are blocks of the one projected array -/

/-- The query window's block at point `t`: rows `512 (4 (t / 32) + t % 4) …`, columns `128 (t / 4 % 8) …`. -/
theorem iblk1_0_apply (c : Dev nD) (t : Fin cfg1.N) (x : S512x128.Idx) (k : S8192x3072.Idx)
    (hk0 : (k 0).val = (t.val / 32 * 4 + t.val % 4) * 512 + (x 0).val) (hk1 : (k 1).val = t.val / 4 % 8 * 128 + (x 1).val) :
    (iblk1 (F := Ideal) V c 0 t : Vec Ideal S512x128 .bf16) x = (V c main_v1 : S8192x3072.Idx → EReal) k := by
  obtain ⟨e0, e1, -⟩ := idx1 t
  unfold iblk1
  rw [View.read_apply]
  show V c main_v1 _ = V c main_v1 _
  congr 1
  funext a
  apply Fin.ext
  match a with
  | ⟨0, _⟩ => show win1_0.index t 0 * 512 + 1 * (x 0).val = (k 0).val; rw [e0, hk0]; omega
  | ⟨1, _⟩ => show win1_0.index t 1 * 128 + 1 * (x 1).val = (k 1).val; rw [e1, hk1]; omega

/-- The key window's block at point `t`: rows `2048 (t / 32) …`, columns `128 (8 + t / 4 % 8) …`. -/
theorem iblk1_1_apply (c : Dev nD) (t : Fin cfg1.N) (x : S2048x128.Idx) (k : S8192x3072.Idx)
    (hk0 : (k 0).val = t.val / 32 * 2048 + (x 0).val) (hk1 : (k 1).val = (8 + t.val / 4 % 8) * 128 + (x 1).val) :
    (iblk1 (F := Ideal) V c 1 t : Vec Ideal S2048x128 .bf16) x = (V c main_v1 : S8192x3072.Idx → EReal) k := by
  obtain ⟨-, -, e0, e1, -⟩ := idx1 t
  unfold iblk1
  rw [View.read_apply]
  show V c main_v1 _ = V c main_v1 _
  congr 1
  funext a
  apply Fin.ext
  match a with
  | ⟨0, _⟩ => show win1_1.index t 0 * 2048 + 1 * (x 0).val = (k 0).val; rw [e0, hk0]; omega
  | ⟨1, _⟩ => show win1_1.index t 1 * 128 + 1 * (x 1).val = (k 1).val; rw [e1, hk1]; omega

/-- The value window's block at point `t`: rows `2048 (t / 32) …`, columns `128 (16 + t / 4 % 8) …`. -/
theorem iblk1_2_apply (c : Dev nD) (t : Fin cfg1.N) (x : S2048x128.Idx) (k : S8192x3072.Idx)
    (hk0 : (k 0).val = t.val / 32 * 2048 + (x 0).val) (hk1 : (k 1).val = (16 + t.val / 4 % 8) * 128 + (x 1).val) :
    (iblk1 (F := Ideal) V c 2 t : Vec Ideal S2048x128 .bf16) x = (V c main_v1 : S8192x3072.Idx → EReal) k := by
  obtain ⟨-, -, -, -, e0, e1, -⟩ := idx1 t
  unfold iblk1
  rw [View.read_apply]
  show V c main_v1 _ = V c main_v1 _
  congr 1
  funext a
  apply Fin.ext
  match a with
  | ⟨0, _⟩ => show win1_2.index t 0 * 2048 + 1 * (x 0).val = (k 0).val; rw [e0, hk0]; omega
  | ⟨1, _⟩ => show win1_2.index t 1 * 128 + 1 * (x 1).val = (k 1).val; rw [e1, hk1]; omega

/-- One head on the blocks of point `t` is the specification's attention: block row `p` is token row
    `512 (4 (t / 32) + t % 4) + p`, and the head at column offset `off` of pair `t / 4 % 8` is head `h` with
    `64 h = 128 (t / 4 % 8) + off`. -/
theorem head_blocks (c : Dev nD) (t : Fin cfg1.N) (off : Nat) (hoff : off + 64 ≤ 128) (p : Fin 512) (d : Fin 64)
    (r : Fin 8192) (h : Fin 16) (hr : r.val = (t.val / 32 * 4 + t.val % 4) * 512 + p.val)
    (hh : h.val * 64 = t.val / 4 % 8 * 128 + off) :
    headOut off hoff (iblk1 (F := Ideal) V c 0 t : Vec Ideal S512x128 .bf16) (iblk1 (F := Ideal) V c 1 t : Vec Ideal S2048x128 .bf16)
      (iblk1 (F := Ideal) V c 2 t : Vec Ideal S2048x128 .bf16) p d = Cert.Attn.attn (V c main_v1) r h d := by
  have hN : cfg1.N = 128 := N_1
  have ht : t.val < 128 := hN ▸ t.isLt
  have hp := p.isLt
  refine headOut_eq (V c main_v1) (iblk1 (F := Ideal) V c 0 t : Vec Ideal S512x128 .bf16)
    (iblk1 (F := Ideal) V c 1 t : Vec Ideal S2048x128 .bf16) (iblk1 (F := Ideal) V c 2 t : Vec Ideal S2048x128 .bf16)
    ((t.val / 32 * 4 + t.val % 4) * 512) (t.val / 32) (t.val / 4 % 8) ?_ ?_ ?_ off hoff h hh p r hr ?_ d
  · intro p' e r' f hr' hf
    exact iblk1_0_apply V c t (ix2 p' e) (ix2 r' f) hr' hf
  · intro m e r' f hr' hf
    exact iblk1_1_apply V c t (ix2 m e) (ix2 r' f) hr' hf
  · intro m e r' f hr' hf
    exact iblk1_2_apply V c t (ix2 m e) (ix2 r' f) hr' hf
  · rw [hr]; omega

/-- The block point `t` stores, at row `p` and column `y`: the attention output of token row
    `512 (4 (t / 32) + t % 4) + p` at column `128 (t / 4 % 8) + y`. -/
theorem stored1_apply (c : Dev nD) (t : Fin cfg1.N) (p : Fin 512) (y : Fin 128) (k : S8192x1024.Idx)
    (hk0 : (k 0).val = (t.val / 32 * 4 + t.val % 4) * 512 + p.val) (hk1 : (k 1).val = t.val / 4 % 8 * 128 + y.val) :
    out1_3 (F := Ideal) (iblk1 V c 0 t) (iblk1 V c 1 t) (iblk1 V c 2 t) (ix2 p y)
      = Cert.Attn.attnA (V c main_v1) k := by
  have hN : cfg1.N = 128 := N_1
  have ht : t.val < 128 := hN ▸ t.isLt
  have hp := p.isLt
  have hy := y.isLt
  have hk0' : (k 0).val < 8192 := (k 0).isLt
  have hk1' : (k 1).val < 1024 := (k 1).isLt
  -- the array-level coordinates of the entry
  have hA : Cert.Attn.attnA (V c main_v1) k
      = Cert.Attn.attn (V c main_v1) (⟨(k 0).val, hk0'⟩ : Fin 8192) (⟨(k 1).val / 64, by omega⟩ : Fin 16)
          (⟨(k 1).val % 64, Nat.mod_lt _ (by decide)⟩ : Fin 64) := rfl
  rw [hA]
  by_cases hlt : y.val < 64
  · have ed : (⟨(k 1).val % 64, Nat.mod_lt _ (by decide)⟩ : Fin 64) = ⟨y.val, hlt⟩ :=
      Fin.ext (by show (k 1).val % 64 = y.val; rw [hk1]; omega)
    refine (out1_3_lo (iblk1 (F := Ideal) V c 0 t) (iblk1 (F := Ideal) V c 1 t) (iblk1 (F := Ideal) V c 2 t) p ⟨y.val, hlt⟩).trans ?_
    refine (pay_lo (iblk1 (F := Ideal) V c 0 t) (iblk1 (F := Ideal) V c 1 t) (iblk1 (F := Ideal) V c 2 t) p ⟨y.val, hlt⟩).trans ?_
    rw [ed]
    exact head_blocks V c t 0 (by decide) p ⟨y.val, hlt⟩ _ _ hk0 (by show (k 1).val / 64 * 64 = _; rw [hk1]; omega)
  · have hge : 64 ≤ y.val := Nat.le_of_not_lt hlt
    have ey : y = (⟨64 + (⟨y.val - 64, by omega⟩ : Fin 64).val, by show 64 + (y.val - 64) < 128; omega⟩ : Fin 128) :=
      Fin.ext (by show y.val = 64 + (y.val - 64); omega)
    have ed : (⟨(k 1).val % 64, Nat.mod_lt _ (by decide)⟩ : Fin 64) = ⟨y.val - 64, by omega⟩ :=
      Fin.ext (by show (k 1).val % 64 = y.val - 64; rw [hk1]; omega)
    refine (congrArg (fun z : Fin 128 => out1_3 (F := Ideal) (iblk1 V c 0 t) (iblk1 V c 1 t) (iblk1 V c 2 t) (ix2 p z)) ey).trans ?_
    refine (out1_3_hi (iblk1 (F := Ideal) V c 0 t) (iblk1 (F := Ideal) V c 1 t) (iblk1 (F := Ideal) V c 2 t) p ⟨y.val - 64, by omega⟩).trans ?_
    refine (pay_hi (iblk1 (F := Ideal) V c 0 t) (iblk1 (F := Ideal) V c 1 t) (iblk1 (F := Ideal) V c 2 t) p ⟨y.val - 64, by omega⟩).trans ?_
    rw [ed]
    exact head_blocks V c t 64 (by decide) p ⟨y.val - 64, by omega⟩ _ _ hk0 (by show (k 1).val / 64 * 64 = _; rw [hk1]; omega)

/-- What point `t` writes back is its block of `attnA Q`. -/
theorem flushed1_eq (c : Dev nD) (t : Fin cfg1.N) :
    (dat1 (F := Ideal) V c).flushed 3 t
      = ((cfg1.win 3).blk t).view.read (Elt Ideal) (Cert.Attn.attnA (V c main_v1)) := by
  show (cfg1.win 3).cut (grid1.coords t) ((dat1 V c).after 3 t) = _
  rw [after1_3]
  obtain ⟨-, -, -, -, -, -, e0, e1⟩ := idx1 t
  funext j
  obtain ⟨p, y, rfl⟩ : ∃ (p : Fin 512) (y : Fin 128), j = ix2 p y := ⟨j 0, j 1, eq_ix2 j⟩
  show out1_3 (F := Ideal) (iblk1 V c 0 t) (iblk1 V c 1 t) (iblk1 V c 2 t) (ix2 p y)
    = Cert.Attn.attnA (V c main_v1) (((cfg1.win 3).blk t).view.emb (ix2 p y))
  refine stored1_apply V c t p y _ ?_ ?_
  · show win1_3.index t 0 * 512 + 1 * p.val = (t.val / 32 * 4 + t.val % 4) * 512 + p.val
    rw [e0]; omega
  · show win1_3.index t 1 * 128 + 1 * y.val = t.val / 4 % 8 * 128 + y.val
    rw [e1]; omega

/-- An index of the result array is in point `t`'s block iff each coordinate is in the block's range on its axis. -/
theorem mem_blk1 (t : Fin cfg1.N) (i : S8192x1024.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_v2).slice (win1_3.rect t)).set ↔ _
  rw [View.set_slice_whole, Rect.mem_set_unit]
  exact Iff.rfl

/-- Row `r`, column `cc` of the result lies in the block of the point of batch `r / 2048`, head pair `cc / 128` and
    query tile `r % 2048 / 512`. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 128 := N_1
  let t : Fin cfg1.N := ⟨((i 0).val / 2048 * 8 + (i 1).val / 128) * 4 + (i 0).val % 2048 / 512, by rw [hN]; omega⟩
  have ht : t.val = ((i 0).val / 2048 * 8 + (i 1).val / 128) * 4 + (i 0).val % 2048 / 512 := rfl
  obtain ⟨-, -, -, -, -, -, e0, e1⟩ := idx1 t
  refine ⟨t, flush1_3 t, ?_⟩
  rw [mem_blk1]
  intro a
  match a with
  | ⟨0, _⟩ =>
    show win1_3.index t 0 * 512 ≤ (i 0).val ∧ (i 0).val < win1_3.index t 0 * 512 + 512
    rw [e0, ht]; omega
  | ⟨1, _⟩ =>
    show win1_3.index t 1 * 128 ≤ (i 1).val ∧ (i 1).val < win1_3.index t 1 * 128 + 128
    rw [e1, ht]; omega

/-- The attention kernel's result array after its run: the attention output of the projected array. -/
theorem final1 (c : Dev nD) :
    (dat1 (F := Ideal) V c).arrAt 3 cfg1.N = Cert.Attn.attnA (V c main_v1) :=
  (dat1 V c).arrAt_eq_of_cover 3 (Cert.Attn.attnA (V c main_v1)) (fun t _ => flushed1_eq V c t) cover1

end

end Cert.Attn.KV1

end
-- ==== Proof.RefValue.Idx.lean ====
/-
  Index arithmetic of the reference program's layout operations, read at explicit coordinates.

  A token row of the 8192-row arrays is r = 2048·b + n for batch b and position n. The reference reshapes the
  4 × 2048 × 3072 projection to 4 × 2048 × 3 × 16 × 64, transposes it to 3 × 4 × 16 × 2048 × 64 and slices the leading
  axis; read back, the slice t at (b, h, n, d) is the projection at (b, n, 1024·t + 64·h + d). The attention output is
  transposed to 4 × 2048 × 16 × 64 and reshaped to 4 × 2048 × 1024: column c is coordinate c % 64 of head c / 64.
-/
import proofs.«162601_j52441550684580_2_alg».proof.Proof.Gen.ReferenceIdeal.Read
import proofs.«162601_j52441550684580_2_alg».proof.Proof.Spec

noncomputable section

namespace Cert.Attn.Ref

open Cert.ReferenceIdeal Cert.ReferenceIdeal.Read Idealize.ShloMosaic Idealize.ShloMosaic.ValueIdx

/-- Token row of position `n` in batch `b`. -/
def tok (b : Fin 4) (n : Fin 2048) : Fin 8192 := ⟨b.val * 2048 + n.val, by have := b.isLt; have := n.isLt; omega⟩

/-- Key row `m` of the batch of token (b, n) is token (b, m). -/
theorem krow_tok (b : Fin 4) (n m : Fin 2048) : krow (tok b n) m = tok b m := by
  have := b.isLt; have := n.isLt; have := m.isLt
  apply Fin.ext
  show (b.val * 2048 + n.val) / 2048 * 2048 + m.val = b.val * 2048 + m.val
  omega

/-! ### The q / k / v slices read back to the projection -/

theorem idx_v4_ix4 (b : Fin 4) (h : Fin 16) (n : Fin 2048) (d : Fin 64) :
    idx_main_v4 (ix4 b h n d) = ix5 (0 : Fin 1) b h n d := by
  have := b.isLt; have := h.isLt; have := n.isLt; have := d.isLt
  funext a
  match a with
  | ⟨0, _⟩ => rfl
  | ⟨1, _⟩ => apply Fin.ext; show (((b.val * 16 + h.val) * 2048 + n.val) * 64 + d.val) / 2097152 % 4 = b.val; omega
  | ⟨2, _⟩ => apply Fin.ext; show (((b.val * 16 + h.val) * 2048 + n.val) * 64 + d.val) / 131072 % 16 = h.val; omega
  | ⟨3, _⟩ => apply Fin.ext; show (((b.val * 16 + h.val) * 2048 + n.val) * 64 + d.val) / 64 % 2048 = n.val; omega
  | ⟨4, _⟩ => apply Fin.ext; show (((b.val * 16 + h.val) * 2048 + n.val) * 64 + d.val) % 64 = d.val; omega

theorem idx_v6_ix4 (b : Fin 4) (h : Fin 16) (n : Fin 2048) (d : Fin 64) :
    idx_main_v6 (ix4 b h n d) = ix5 (0 : Fin 1) b h n d := idx_v4_ix4 b h n d

theorem idx_v8_ix4 (b : Fin 4) (h : Fin 16) (n : Fin 2048) (d : Fin 64) :
    idx_main_v8 (ix4 b h n d) = ix5 (0 : Fin 1) b h n d := idx_v4_ix4 b h n d

theorem idx_v3_ix5 (b : Fin 4) (h : Fin 16) (n : Fin 2048) (d : Fin 64) :
    idx_main_v3 (ix5 (0 : Fin 1) b h n d) = ix5 (0 : Fin 3) b h n d := by
  funext a
  match a with
  | ⟨0, _⟩ => rfl
  | ⟨1, _⟩ => rfl
  | ⟨2, _⟩ => rfl
  | ⟨3, _⟩ => rfl
  | ⟨4, _⟩ => rfl

theorem idx_v5_ix5 (b : Fin 4) (h : Fin 16) (n : Fin 2048) (d : Fin 64) :
    idx_main_v5 (ix5 (0 : Fin 1) b h n d) = ix5 (1 : Fin 3) b h n d := by
  funext a
  match a with
  | ⟨0, _⟩ => rfl
  | ⟨1, _⟩ => rfl
  | ⟨2, _⟩ => rfl
  | ⟨3, _⟩ => rfl
  | ⟨4, _⟩ => rfl

theorem idx_v7_ix5 (b : Fin 4) (h : Fin 16) (n : Fin 2048) (d : Fin 64) :
    idx_main_v7 (ix5 (0 : Fin 1) b h n d) = ix5 (2 : Fin 3) b h n d := by
  funext a
  match a with
  | ⟨0, _⟩ => rfl
  | ⟨1, _⟩ => rfl
  | ⟨2, _⟩ => rfl
  | ⟨3, _⟩ => rfl
  | ⟨4, _⟩ => rfl

theorem idx_v2_ix5 (t : Fin 3) (b : Fin 4) (h : Fin 16) (n : Fin 2048) (d : Fin 64) :
    idx_main_v2 (ix5 t b h n d) = ix5 b n t h d := by
  funext a
  match a with
  | ⟨0, _⟩ => rfl
  | ⟨1, _⟩ => rfl
  | ⟨2, _⟩ => rfl
  | ⟨3, _⟩ => rfl
  | ⟨4, _⟩ => rfl

/-- Column 1024·t + 64·h + d of the 3072-wide projection. -/
def col3 (t : Fin 3) (h : Fin 16) (d : Fin 64) : Fin 3072 :=
  ⟨t.val * 1024 + h.val * 64 + d.val, by have := t.isLt; have := h.isLt; have := d.isLt; omega⟩

theorem idx_v1_ix5 (t : Fin 3) (b : Fin 4) (h : Fin 16) (n : Fin 2048) (d : Fin 64) :
    idx_main_v1 (ix5 b n t h d) = ix3 b n (col3 t h d) := by
  have := b.isLt; have := h.isLt; have := n.isLt; have := d.isLt; have := t.isLt
  funext a
  match a with
  | ⟨0, _⟩ => apply Fin.ext; show ((((b.val * 2048 + n.val) * 3 + t.val) * 16 + h.val) * 64 + d.val) / 6291456 = b.val; omega
  | ⟨1, _⟩ => apply Fin.ext; show ((((b.val * 2048 + n.val) * 3 + t.val) * 16 + h.val) * 64 + d.val) / 3072 % 2048 = n.val; omega
  | ⟨2, _⟩ => apply Fin.ext; show ((((b.val * 2048 + n.val) * 3 + t.val) * 16 + h.val) * 64 + d.val) % 3072 = t.val * 1024 + h.val * 64 + d.val; omega

theorem col3_zero (h : Fin 16) (d : Fin 64) : col3 0 h d = qcol h d := by
  apply Fin.ext; show 0 * 1024 + h.val * 64 + d.val = h.val * 64 + d.val; omega
theorem col3_one (h : Fin 16) (d : Fin 64) : col3 1 h d = kcol h d := by
  apply Fin.ext; show 1 * 1024 + h.val * 64 + d.val = 1024 + h.val * 64 + d.val; omega
theorem col3_two (h : Fin 16) (d : Fin 64) : col3 2 h d = vcol h d := by
  apply Fin.ext; show 2 * 1024 + h.val * 64 + d.val = 2048 + h.val * 64 + d.val; omega

/-! ### The dot products' operand indices -/

theorem lidx_v0_ix3 (b : Fin 4) (n : Fin 2048) (f : Fin 3072) (k : Fin 1024) :
    lidx_main_v0 (ix3 b n f) k = ix3 b n k := by
  funext a
  match a with
  | ⟨0, _⟩ => rfl
  | ⟨1, _⟩ => rfl
  | ⟨2, _⟩ => rfl

theorem ridx_v0_ix3 (b : Fin 4) (n : Fin 2048) (f : Fin 3072) (k : Fin 1024) :
    ridx_main_v0 (ix3 b n f) k = ix2 k f := by
  funext a
  match a with
  | ⟨0, _⟩ => rfl
  | ⟨1, _⟩ => rfl

theorem lidx_v9_ix4 (b : Fin 4) (h : Fin 16) (n m : Fin 2048) (k : Fin 64) :
    lidx_main_v9 (ix4 b h n m) k = ix4 b h n k := by
  funext a
  match a with
  | ⟨0, _⟩ => rfl
  | ⟨1, _⟩ => rfl
  | ⟨2, _⟩ => rfl
  | ⟨3, _⟩ => rfl

theorem ridx_v9_ix4 (b : Fin 4) (h : Fin 16) (n m : Fin 2048) (k : Fin 64) :
    ridx_main_v9 (ix4 b h n m) k = ix4 b h m k := by
  funext a
  match a with
  | ⟨0, _⟩ => rfl
  | ⟨1, _⟩ => rfl
  | ⟨2, _⟩ => rfl
  | ⟨3, _⟩ => rfl

theorem lidx_v23_ix4 (b : Fin 4) (h : Fin 16) (n : Fin 2048) (d : Fin 64) (k : Fin 2048) :
    lidx_main_v23 (ix4 b h n d) k = ix4 b h n k := by
  funext a
  match a with
  | ⟨0, _⟩ => rfl
  | ⟨1, _⟩ => rfl
  | ⟨2, _⟩ => rfl
  | ⟨3, _⟩ => rfl

theorem ridx_v23_ix4 (b : Fin 4) (h : Fin 16) (n : Fin 2048) (d : Fin 64) (k : Fin 2048) :
    ridx_main_v23 (ix4 b h n d) k = ix4 b h k d := by
  funext a
  match a with
  | ⟨0, _⟩ => rfl
  | ⟨1, _⟩ => rfl
  | ⟨2, _⟩ => rfl
  | ⟨3, _⟩ => rfl

theorem lidx_v26_ix3 (b : Fin 4) (n : Fin 2048) (o : Fin 1024) (k : Fin 1024) :
    lidx_main_v26 (ix3 b n o) k = ix3 b n k := by
  funext a
  match a with
  | ⟨0, _⟩ => rfl
  | ⟨1, _⟩ => rfl
  | ⟨2, _⟩ => rfl

theorem ridx_v26_ix3 (b : Fin 4) (n : Fin 2048) (o : Fin 1024) (k : Fin 1024) :
    ridx_main_v26 (ix3 b n o) k = ix2 k o := by
  funext a
  match a with
  | ⟨0, _⟩ => rfl
  | ⟨1, _⟩ => rfl

/-! ### Broadcasts along the key axis, and the reduced axis put back -/

theorem idx_v15_v16_ix4 (b : Fin 4) (h : Fin 16) (n m : Fin 2048) :
    idx_main_v15 (idx_main_v16 (ix4 b h n m)) = ix3 b h n := by
  funext a
  match a with
  | ⟨0, _⟩ => rfl
  | ⟨1, _⟩ => rfl
  | ⟨2, _⟩ => rfl

theorem idx_v20_v21_ix4 (b : Fin 4) (h : Fin 16) (n m : Fin 2048) :
    idx_main_v20 (idx_main_v21 (ix4 b h n m)) = ix3 b h n := by
  funext a
  match a with
  | ⟨0, _⟩ => rfl
  | ⟨1, _⟩ => rfl
  | ⟨2, _⟩ => rfl

theorem idx_v19_ix3 (b : Fin 4) (h : Fin 16) (n : Fin 2048) (k : Fin 2048) :
    idx_main_v19 (ix3 b h n) k = ix4 b h n k := by
  funext a
  match a with
  | ⟨0, _⟩ => rfl
  | ⟨1, _⟩ => rfl
  | ⟨2, _⟩ => rfl
  | ⟨3, _⟩ => rfl

/-- The reduced index (b, h, n) with key `k` put back on the dropped axis is (b, h, n, k). -/
theorem lift_ix3 (hr : S4x16x2048x2048.Reduces [3] S4x16x2048) (b : Fin 4) (h : Fin 16) (n : Fin 2048)
    (k : Fin (S4x16x2048x2048.size 3)) :
    hr.lift (ix3 b h n) k = ix4 b h n (⟨k.val, k.isLt⟩ : Fin 2048) := by
  funext c; apply Fin.ext
  fin_cases c <;> rfl

/-! ### The attention output's transpose and reshape, and the bias broadcast -/

theorem idx_v24_v25_ix3 (b : Fin 4) (n : Fin 2048) (c : Fin 1024) :
    idx_main_v24 (idx_main_v25 (ix3 b n c))
      = ix4 b (⟨c.val / 64, by have := c.isLt; omega⟩ : Fin 16) n (⟨c.val % 64, Nat.mod_lt _ (by decide)⟩ : Fin 64) := by
  have := b.isLt; have := n.isLt; have := c.isLt
  funext a
  match a with
  | ⟨0, _⟩ => apply Fin.ext; show ((b.val * 2048 + n.val) * 1024 + c.val) / 2097152 = b.val; omega
  | ⟨1, _⟩ => apply Fin.ext; show ((b.val * 2048 + n.val) * 1024 + c.val) / 64 % 16 = c.val / 64; omega
  | ⟨2, _⟩ => apply Fin.ext; show ((b.val * 2048 + n.val) * 1024 + c.val) / 1024 % 2048 = n.val; omega
  | ⟨3, _⟩ => apply Fin.ext; show ((b.val * 2048 + n.val) * 1024 + c.val) % 64 = c.val % 64; omega

theorem idx_v27_v28_ix3 (b : Fin 4) (n : Fin 2048) (o : Fin 1024) :
    idx_main_v27 (idx_main_v28 (ix3 b n o)) = ix1 o := by
  funext a
  match a with
  | ⟨0, _⟩ => rfl

end Cert.Attn.Ref

end
-- ==== Proof.RefValue.Qkv.lean ====
/-
  The reference program's projection and its query / key / value slices, read at explicit coordinates.

  With the token rows X (row 2048·b + n of X is the input at (b, n, ·)), the first dot product at (b, n, f) is
  (X · Wqkv)[2048·b + n, f]; the three slices at (b, h, n, d) are that array at columns 64h + d, 1024 + 64h + d and
  2048 + 64h + d of the same row.
-/
import proofs.«162601_j52441550684580_2_alg».proof.Proof.RefValue.Idx
import Idealize.ShloMosaic.Lib.ValueLayout

noncomputable section

namespace Cert.Attn.Ref

open Cert.ReferenceIdeal Cert.ReferenceIdeal.Read Idealize.ShloMosaic Idealize.ShloMosaic.ValueIdx

/-- The input at (b, n, k), read as row 2048·b + n of an 8192 × 1024 array. -/
theorem rows_apply (x0 : (⟨S4x2048x1024, .f32⟩ : BufTy).Contents (Elt Ideal))
    (h1 : (⟨3, ![4, 2048, 1024]⟩ : Shape).ShapeCasts ⟨2, ![8192, 1024]⟩) (b : Fin 4) (n : Fin 2048) (k : Fin 1024) :
    shapeCast (⟨2, ![8192, 1024]⟩ : Shape) x0 h1 (ix2 (tok b n) k) = x0 (ix3 b n k) :=
  shapeCast_apply x0 h1 _ _ (by
    rw [Shape.rowMajor_val_three, Shape.rowMajor_val_two]
    rfl)

/-- The bias vector at `o`, read as the one row of a 1 × 1024 array. -/
theorem bias_apply (x3 : (⟨S1024, .f32⟩ : BufTy).Contents (Elt Ideal))
    (h2 : (⟨1, ![1024]⟩ : Shape).ShapeCasts ⟨2, ![1, 1024]⟩) (o : Fin 1024) :
    shapeCast (⟨2, ![1, 1024]⟩ : Shape) x3 h2 (ix2 (0 : Fin 1) o) = x3 (ix1 o) :=
  shapeCast_a_1a_apply x3 h2 0 o

section
variable (x0 : (⟨S4x2048x1024, .f32⟩ : BufTy).Contents (Elt Ideal)) (x1 : (⟨S1024x3072, .f32⟩ : BufTy).Contents (Elt Ideal))
  (X : Arr2 8192 1024) (hX : ∀ (b : Fin 4) (n : Fin 2048) (k : Fin 1024), X (ix2 (tok b n) k) = x0 (ix3 b n k))

include hX

/-- The first dot product is the projection of the token rows. -/
theorem v0_eq (b : Fin 4) (n : Fin 2048) (f : Fin 3072) :
    val_main_v0 (F := Ideal) x0 x1 (ix3 b n f) = projA X x1 (ix2 (tok b n) f) := by
  rw [val_main_v0_apply, projA_apply]
  unfold proj
  refine Finset.sum_congr rfl fun k _ => ?_
  rw [lidx_v0_ix3, ridx_v0_ix3, hX]

omit hX in
/-- Slice `t` of the reshaped and transposed projection at (b, h, n, d) is the projection at column 1024·t + 64·h + d. -/
theorem v2_eq (t : Fin 3) (b : Fin 4) (h : Fin 16) (n : Fin 2048) (d : Fin 64) :
    val_main_v2 (F := Ideal) x0 x1 (ix5 t b h n d) = val_main_v0 (F := Ideal) x0 x1 (ix3 b n (col3 t h d)) := by
  rw [val_main_v2_apply, val_main_v1_apply, idx_v2_ix5, idx_v1_ix5]

/-- The queries. -/
theorem q_eq (b : Fin 4) (h : Fin 16) (n : Fin 2048) (d : Fin 64) :
    val_main_v4 (F := Ideal) x0 x1 (ix4 b h n d) = projA X x1 (ix2 (tok b n) (qcol h d)) := by
  rw [val_main_v4_apply, val_main_v3_apply, idx_v4_ix4, idx_v3_ix5, v2_eq, col3_zero, v0_eq x0 x1 X hX]

/-- The keys. -/
theorem k_eq (b : Fin 4) (h : Fin 16) (n : Fin 2048) (d : Fin 64) :
    val_main_v6 (F := Ideal) x0 x1 (ix4 b h n d) = projA X x1 (ix2 (tok b n) (kcol h d)) := by
  rw [val_main_v6_apply, val_main_v5_apply, idx_v6_ix4, idx_v5_ix5, v2_eq, col3_one, v0_eq x0 x1 X hX]

/-- The values. -/
theorem v_eq (b : Fin 4) (h : Fin 16) (n : Fin 2048) (d : Fin 64) :
    val_main_v8 (F := Ideal) x0 x1 (ix4 b h n d) = projA X x1 (ix2 (tok b n) (vcol h d)) := by
  rw [val_main_v8_apply, val_main_v7_apply, idx_v8_ix4, idx_v7_ix5, v2_eq, col3_two, v0_eq x0 x1 X hX]

end

end Cert.Attn.Ref

end
-- ==== Proof.RefValue.Soft.lean ====
/-
  The reference program's softmax, read at explicit coordinates: the scaled logits, the row maximum taken from −∞, the
  shifted exponentials, their row sum, and the attention weights, each equal to the specification's at token row
  2048·b + n and head h.
-/
import proofs.«162601_j52441550684580_2_alg».proof.Proof.RefValue.Qkv

noncomputable section

namespace Cert.Attn.Ref

open Cert.ReferenceIdeal Cert.ReferenceIdeal.Read Idealize.ShloMosaic Idealize.ShloMosaic.ValueIdx

/-- The word 0xFF800000 is −∞: the maximum with it is the other operand. -/
theorem max_negInf (y : EReal) : max (Ideal.ofBits .f32 0xFF800000#32) y = y := by
  simp [Ideal.ofBits, Ideal.ieee]

/-- The host's maximum reduce over the key axis, at (b, h, n), is the fold of `max` over the 2048 keys from the initial
    value. -/
theorem reduce_max_keys (y : S4x16x2048x2048.Idx → EReal) (init : S_.Idx → EReal)
    (h' : S4x16x2048x2048.ReducesTo [3] S4x16x2048) (hu : 0 < S_.numel) (b : Fin 4) (h : Fin 16) (n : Fin 2048) :
    Host.reduce (FloatOps.maximumf (F := Ideal) (φ := .f32)) y init h' hu (ix3 b h n)
      = (Finset.univ : Finset (Fin 2048)).fold max (init (Shape.Idx.first hu)) (fun m => y (ix4 b h n m)) := by
  have hr : S4x16x2048x2048.Reduces [3] S4x16x2048 := ⟨h'.1, by decide, h'.2⟩
  refine (Host.reduce_eq_fold_single (FloatOps.maximumf (F := Ideal) (φ := .f32)) y init h' hr hu (ix3 b h n)).trans ?_
  have hf : (y ∘ hr.lift (ix3 b h n)) = fun m : Fin 2048 => y (ix4 b h n m) :=
    funext fun k => congrArg y (lift_ix3 hr b h n k)
  exact congrArg (fun f => Finset.fold max (init (Shape.Idx.first hu)) f (Finset.univ : Finset (Fin 2048))) hf

section
variable (x0 : (⟨S4x2048x1024, .f32⟩ : BufTy).Contents (Elt Ideal)) (x1 : (⟨S1024x3072, .f32⟩ : BufTy).Contents (Elt Ideal))
  (X : Arr2 8192 1024) (hX : ∀ (b : Fin 4) (n : Fin 2048) (k : Fin 1024), X (ix2 (tok b n) k) = x0 (ix3 b n k))

include hX

/-- The scaled logits. -/
theorem score_eq (b : Fin 4) (h : Fin 16) (n m : Fin 2048) :
    val_main_v11 (F := Ideal) x0 x1 (ix4 b h n m) = score (projA X x1) (tok b n) h m := by
  rw [val_main_v11_apply, val_main_v9_apply, val_main_v10_apply, val_main_cst_apply]
  unfold score
  refine congrArg (fun s : EReal => s * Ideal.ofBits .f32 0x3E000000#32) ?_
  refine Finset.sum_congr rfl fun k _ => ?_
  rw [lidx_v9_ix4, ridx_v9_ix4, q_eq x0 x1 X hX, k_eq x0 x1 X hX, krow_tok]

/-- The row maximum: the reduce from −∞, then the maximum with −∞. -/
theorem rowmax_eq (b : Fin 4) (h : Fin 16) (n : Fin 2048) :
    val_main_v14 (F := Ideal) x0 x1 (ix3 b h n) = rowmax (projA X x1) (tok b n) h := by
  rw [val_main_v14_apply, val_main_v13_apply, val_main_cst_1_apply]
  have hs : ∀ m : Fin 2048, val_main_v11 (F := Ideal) x0 x1 (ix4 b h n m) = score (projA X x1) (tok b n) h m :=
    fun m => score_eq x0 x1 X hX b h n m
  unfold val_main_v12
  generalize val_main_v11 (F := Ideal) x0 x1 = y at hs ⊢
  refine (max_negInf _).trans ?_
  refine (reduce_max_keys y _ _ _ b h n).trans ?_
  unfold rowmax
  rw [funext hs]
  rfl

/-- The shifted exponentials. -/
theorem pexp_eq (b : Fin 4) (h : Fin 16) (n m : Fin 2048) :
    val_main_v18 (F := Ideal) x0 x1 (ix4 b h n m) = pexp (projA X x1) (tok b n) h m := by
  rw [val_main_v18_apply, val_main_v17_apply, val_main_v16_apply, val_main_v15_apply, idx_v15_v16_ix4,
    score_eq x0 x1 X hX, rowmax_eq x0 x1 X hX]
  rfl

/-- The softmax denominator: the sum from the zero word. -/
theorem rowsum_eq (b : Fin 4) (h : Fin 16) (n : Fin 2048) :
    val_main_v19 (F := Ideal) x0 x1 (ix3 b h n) = rowsum (projA X x1) (tok b n) h := by
  rw [val_main_v19_apply, val_main_cst_2_apply]
  unfold rowsum
  refine (congrArg (fun z : EReal => z + _) Ideal.ofBits_zero_f32).trans ?_
  rw [zero_add]
  refine Finset.sum_congr rfl fun k _ => ?_
  rw [idx_v19_ix3, pexp_eq x0 x1 X hX]

/-- The attention weights. -/
theorem prob_eq (b : Fin 4) (h : Fin 16) (n m : Fin 2048) :
    val_main_v22 (F := Ideal) x0 x1 (ix4 b h n m) = prob (projA X x1) (tok b n) h m := by
  rw [val_main_v22_apply, val_main_v21_apply, val_main_v20_apply, idx_v20_v21_ix4,
    pexp_eq x0 x1 X hX, rowsum_eq x0 x1 X hX]
  rfl

end

end Cert.Attn.Ref

end
-- ==== Proof.RefValue.Out.lean ====
/-
  The reference program's head outputs, their transpose and reshape to token rows, and the output projection with its
  bias, read at explicit coordinates and equal to the specification's layer at token row 2048·b + n.
-/
import proofs.«162601_j52441550684580_2_alg».proof.Proof.RefValue.Soft

noncomputable section

namespace Cert.Attn.Ref

open Cert.ReferenceIdeal Cert.ReferenceIdeal.Read Idealize.ShloMosaic Idealize.ShloMosaic.ValueIdx

section
variable (x0 : (⟨S4x2048x1024, .f32⟩ : BufTy).Contents (Elt Ideal)) (x1 : (⟨S1024x3072, .f32⟩ : BufTy).Contents (Elt Ideal))
  (X : Arr2 8192 1024) (hX : ∀ (b : Fin 4) (n : Fin 2048) (k : Fin 1024), X (ix2 (tok b n) k) = x0 (ix3 b n k))

include hX

/-- The head outputs: the weights against the values. -/
theorem attn_eq (b : Fin 4) (h : Fin 16) (n : Fin 2048) (d : Fin 64) :
    val_main_v23 (F := Ideal) x0 x1 (ix4 b h n d) = attn (projA X x1) (tok b n) h d := by
  rw [val_main_v23_apply]
  unfold attn
  refine Finset.sum_congr rfl fun k _ => ?_
  rw [lidx_v23_ix4, ridx_v23_ix4, prob_eq x0 x1 X hX, v_eq x0 x1 X hX, krow_tok]

/-- The head outputs transposed and reshaped to token rows: column `c` is coordinate `c % 64` of head `c / 64`. -/
theorem attnA_eq (b : Fin 4) (n : Fin 2048) (c : Fin 1024) :
    val_main_v25 (F := Ideal) x0 x1 (ix3 b n c) = attnA (projA X x1) (ix2 (tok b n) c) := by
  rw [val_main_v25_apply, val_main_v24_apply, idx_v24_v25_ix3, attn_eq x0 x1 X hX]
  rfl

/-- The output projection plus the broadcast bias is the layer. -/
theorem out_eq (x2 : (⟨S1024x1024, .f32⟩ : BufTy).Contents (Elt Ideal)) (x3 : (⟨S1024, .f32⟩ : BufTy).Contents (Elt Ideal))
    (Bias : Arr2 1 1024) (hB : ∀ o : Fin 1024, Bias (ix2 (0 : Fin 1) o) = x3 (ix1 o))
    (b : Fin 4) (n : Fin 2048) (o : Fin 1024) :
    val_main_v29 (F := Ideal) x0 x1 x2 x3 (ix3 b n o) = layer X x1 x2 Bias (ix2 (tok b n) o) := by
  rw [val_main_v29_apply, val_main_v26_apply, val_main_v28_apply, val_main_v27_apply, idx_v27_v28_ix3]
  unfold layer
  rw [outA_apply]
  unfold outp proj
  rw [hB]
  refine congrArg (fun s : EReal => s + x3 (ix1 o)) ?_
  refine Finset.sum_congr rfl fun k _ => ?_
  rw [lidx_v26_ix3, ridx_v26_ix3, attnA_eq x0 x1 X hX]

end

end Cert.Attn.Ref

end
-- ==== Proof.RefValue.lean ====
/-
  The reference program's result is the specification's layer on the token rows.

  The input 4 × 2048 × 1024 read as 8192 token rows, the bias read as one row, and the layer's 8192 × 1024 result read
  back as 4 × 2048 × 1024 are the same elements in row-major order; with that, every element of the reference's result
  is the layer's element at token row 2048·b + n.
-/
import proofs.«162601_j52441550684580_2_alg».proof.Proof.RefValue.Out

noncomputable section

namespace Cert.Attn.Ref

open Cert.ReferenceIdeal Cert.ReferenceIdeal.Read Idealize.ShloMosaic Idealize.ShloMosaic.ValueIdx

theorem reference_eq
    (x0 : (⟨Cert.ReferenceIdeal.S4x2048x1024, .f32⟩ : BufTy).Contents (Elt Ideal))
    (x1 : (⟨Cert.ReferenceIdeal.S1024x3072, .f32⟩ : BufTy).Contents (Elt Ideal))
    (x2 : (⟨Cert.ReferenceIdeal.S1024x1024, .f32⟩ : BufTy).Contents (Elt Ideal))
    (x3 : (⟨Cert.ReferenceIdeal.S1024, .f32⟩ : BufTy).Contents (Elt Ideal))
    (h1 : (⟨3, ![4, 2048, 1024]⟩ : Shape).ShapeCasts ⟨2, ![8192, 1024]⟩)
    (h2 : (⟨1, ![1024]⟩ : Shape).ShapeCasts ⟨2, ![1, 1024]⟩)
    (h3 : (⟨2, ![8192, 1024]⟩ : Shape).ShapeCasts ⟨3, ![4, 2048, 1024]⟩) :
    Cert.ReferenceIdeal.Read.val_main_v29 (F := Ideal) x0 x1 x2 x3
      = shapeCast (⟨3, ![4, 2048, 1024]⟩ : Shape)
          (Cert.Attn.layer (shapeCast (⟨2, ![8192, 1024]⟩ : Shape) x0 h1) x1 x2
            (shapeCast (⟨2, ![1, 1024]⟩ : Shape) x3 h2)) h3 := by
  funext i
  obtain ⟨b, n, o, rfl⟩ : ∃ (b : Fin 4) (n : Fin 2048) (o : Fin 1024), i = ix3 b n o := ⟨i 0, i 1, i 2, eq_ix3 i⟩
  rw [out_eq x0 x1 _ (rows_apply x0 h1) x2 x3 _ (bias_apply x3 h2)]
  refine (shapeCast_apply _ h3 (ix3 b n o) (ix2 (tok b n) o) ?_).symm
  rw [Shape.rowMajor_val_two, Shape.rowMajor_val_three]
  rfl

end Cert.Attn.Ref

end
-- ==== Proof.lean ====
/-
  A multi-head self-attention layer — the projection of 8192 token rows to queries, keys and values, softmax attention
  in 16 heads of width 64, the output projection with its bias — computed by three tiled kernels, equals its plain
  formulation on the extended reals.

  Both programs are the same composition of finite sums, one maximum, exponentials, a quotient and a bias, entry by
  entry (Proof/Spec.lean states it once). The kernels differ from the plain program only in what changes no value
  there: roundings to a narrower float format (the identity on the extended reals); the order and grouping of sums
  (finite sums in a commutative monoid); the tiling — 512-row blocks, two heads per step, the keys and values of a
  head pair read out of the projected array in place rather than through a transposed copy (index arithmetic:
  column 1024·t + 64·h + d of the projection is coordinate d of head h of the queries, keys or values for t = 0, 1, 2,
  and token row 2048·b + n is row n of batch b); and the host's extra maximum with −∞, which is the identity. No step
  uses distributivity or cancellation, so finiteness of the inputs is never needed.

  The frames: each kernel's body, called at any grid point on buffers holding its input blocks, ends with the output
  buffer holding the block the definitions name (Proof/Body*.lean), and the three kernels and the three reshapes
  compose from the launch memory to the return (Proof/RunAll*.lean) — for the word-level program and for the idealized
  one by the same text, which never looks at a float. The attention kernel's three input windows read ONE array, held
  at three shares of the whole for the kernel's duration. The values: each kernel's result array is the whole-array
  function its blocks are pieces of (Proof/Val*.lean), and the plain program's result is that function too
  (Proof/RefValue.lean).
-/
import proofs.«162601_j52441550684580_2_alg».proof.Defs
import proofs.«162601_j52441550684580_2_alg».proof.Proof.Gen.Kernel
import proofs.«162601_j52441550684580_2_alg».proof.Proof.Gen.KernelIdeal
import proofs.«162601_j52441550684580_2_alg».proof.Proof.Gen.ReferenceIdeal
import proofs.«162601_j52441550684580_2_alg».proof.Proof.Gen.Pre_finite_inputs
import proofs.«162601_j52441550684580_2_alg».proof.Proof.Gen.ReferenceIdeal.Run
import proofs.«162601_j52441550684580_2_alg».proof.Proof.Gen.ReferenceIdeal.Read
import proofs.«162601_j52441550684580_2_alg».proof.Proof.RunAllBits
import proofs.«162601_j52441550684580_2_alg».proof.Proof.RunAllIdeal
import proofs.«162601_j52441550684580_2_alg».proof.Proof.ValKernel
import proofs.«162601_j52441550684580_2_alg».proof.Proof.Val1
import proofs.«162601_j52441550684580_2_alg».proof.Proof.RefValue

noncomputable section

namespace Cert.Proof

open Idealize.ShloMosaic Idealize.ShloMosaic.TcCoe Idealize.SL.Sem

/-- The word-level kernels run to the end, fault nowhere and leave the four argument arrays as launched. -/
theorem frame_k : Cert.frame_Kernel := fun m ρ _ => Cert.Kernel.Run.frame (F := Bits) m ρ

/-- So do the idealized kernels. -/
theorem frame_ki : Cert.frame_KernelIdeal := fun m ρ _ => Cert.KernelIdeal.Run.frame (F := Ideal) m ρ

/-- The plain program is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's value of those arguments: the kernels'
    last buffer holds the reshape of `Cert.Attn.layer` of the reshaped tokens, the two weights and the bias row, and so
    does the plain program's result. -/
theorem algebraic : Cert.algebraic_KernelIdeal_ReferenceIdeal := by
  intro m ρ m' ρ' _ hagree
  refine ⟨fun c => Cert.KernelIdeal.Run.W6 (F := Ideal) m c (Proc.devRef .tc Cert.KernelIdeal.main_v5), ?_, ?_⟩
  · exact (θ_run Cert.KernelIdeal.defs _ _).mono (fun r h c =>
      ⟨h c _ (Cert.KernelIdeal.Run.mem_uc Cert.KernelIdeal.main_v5 (by decide)),
       (h c _ (Cert.KernelIdeal.Run.mem_uc Cert.KernelIdeal.main_arg0 (by decide))).trans (Cert.KernelIdeal.Run.W6_main_arg0 m c),
       (h c _ (Cert.KernelIdeal.Run.mem_uc Cert.KernelIdeal.main_arg1 (by decide))).trans (Cert.KernelIdeal.Run.W6_main_arg1 m c),
       (h c _ (Cert.KernelIdeal.Run.mem_uc Cert.KernelIdeal.main_arg2 (by decide))).trans (Cert.KernelIdeal.Run.W6_main_arg2 m c),
       (h c _ (Cert.KernelIdeal.Run.mem_uc Cert.KernelIdeal.main_arg3 (by decide))).trans (Cert.KernelIdeal.Run.W6_main_arg3 m c)⟩)
      (Cert.KernelIdeal.Run.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2,
      Cert.Attn.Ref.reference_eq _ _ _ _ Cert.KernelIdeal.Gen.shapeCasts_S4x2048x1024_S8192x1024
        Cert.KernelIdeal.Gen.shapeCasts_S1024_S1x1024 Cert.KernelIdeal.Gen.shapeCasts_S8192x1024_S4x2048x1024]
    exact (Cert.Attn.KV.kernel_value Cert.Attn.KV1.final1 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
